-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S256x64x1024 : S_.BroadcastsInDim S256x64x1024 (![] : Fin 0 → Fin S256x64x1024.rank)
  reducesTo_S256x64x1024_S_d0_1_2 : S256x64x1024.ReducesTo [0, 1, 2] S_
  bcast_S_S256x64x1 : S_.BroadcastsInDim S256x64x1 (![] : Fin 0 → Fin S256x64x1.rank)
  reducesTo_S256x64x1_S_d0_1_2 : S256x64x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_

variable [Facts]

def fn_part6 {F : FTy → Type} [FloatOps F] (main_arg21 : FVec F S1024 .f32) (main_v98 : IVec S_ 1) (main_v101 : IVec S512x1024 1) (main_c_39 : IVec S_ 1) : IVec S_ 1 :=
  let main_v102 : IVec S_ 1 := (fun x v => Host.reduce IntOp.andi x v reducesTo_S512x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S512x1024 .f32) (main_arg19 : FVec F S1024 .f32) (main_arg20 : FVec F S512x1024 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S512x1024 .f32 := Host.absf main_arg18
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S512x1024 .f32 := Host.absf main_arg20
  let main_cst_38 : FVec F S_ .f32 := constant S_ .f32 0x7F800000#32
  let main_v100 : FVec F S512x1024 .f32 := broadcastInDim S512x1024 ![] bcast_S_S512x1024 main_cst_38
  let main_v101 : IVec S512x1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S512x1024 .f32 := Host.absf main_arg16
  let main_cst_30 : FVec F S_ .f32 := constant S_ .f32 0x7F800000#32
  let main_v80 : FVec F S512x1024 .f32 := broadcastInDim S512x1024 ![] bcast_S_S512x1024 main_cst_30
  let main_v81 : IVec S512x1024 1 := cmpf .olt main_v79 main_v80
  let main_c_31 : IVec S_ 1 := constantI S_ 1 1#1
  let main_v82 : IVec S_ 1 := (fun x v => Host.reduce IntOp.andi x v reducesTo_S512x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) (main_v13 : IVec S_ 1) (main_v16 : IVec S256x64x1024 1) : IVec S_ 1 :=
  let main_c_5 : IVec S_ 1 := constantI S_ 1 1#1
  let main_v17 : IVec S_ 1 := (fun x v => Host.reduce IntOp.andi x v reducesTo_S256x64x1024_S_d0_1_2 h_S_) main_v16 main_c_5
  let main_v18 : IVec S_ 1 := andi main_v13 main_v17
  let main_v19 : FVec F S256x64x1024 .f32 := Host.absf main_arg4
  let main_cst_6 : FVec F S_ .f32 := constant S_ .f32 0x7F800000#32
  let main_v20 : FVec F S256x64x1024 .f32 := broadcastInDim S256x64x1024 ![] bcast_S_S256x64x1024 main_cst_6
  let main_v21 : IVec S256x64x1024 1 := cmpf .olt main_v19 main_v20
  let main_c_7 : IVec S_ 1 := constantI S_ 1 1#1
  let main_v22 : IVec S_ 1 := (fun x v => Host.reduce IntOp.andi x v reducesTo_S256x64x1024_S_d0_1_2 h_S_) main_v21 main_c_7
  let main_v23 : IVec S_ 1 := andi main_v18 main_v22
  let main_v24 : FVec F S256x64x1 .f32 := Host.absf main_arg5
  let main_cst_8 : FVec F S_ .f32 := constant S_ .f32 0x7F800000#32
  let main_v25 : FVec F S256x64x1 .f32 := broadcastInDim S256x64x1 ![] bcast_S_S256x64x1 main_cst_8
  let main_v26 : IVec S256x64x1 1 := cmpf .olt main_v24 main_v25
  let main_c_9 : IVec S_ 1 := constantI S_ 1 1#1
  let main_v27 : IVec S_ 1 := (fun x v => Host.reduce IntOp.andi x v reducesTo_S256x64x1_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S256x64x512 .f32) (main_arg1 : FVec F S256x64x1024 .f32) (main_arg2 : FVec F S256x64x1024 .f32) (main_arg3 : FVec F S256x64x1024 .f32) (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S512x1024 .f32) (main_arg15 : FVec F S1024 .f32) (main_arg16 : FVec F S512x1024 .f32) (main_arg17 : FVec F S1024 .f32) (main_arg18 : FVec F S512x1024 .f32) (main_arg19 : FVec F S1024 .f32) (main_arg20 : FVec F S512x1024 .f32) (main_arg21 : FVec F S1024 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_c_1 : IVec S_ 1 := constantI S_ 1 1#1
  let main_v7 : IVec S_ 1 := (fun x v => Host.reduce IntOp.andi x v reducesTo_S256x64x1024_S_d0_1_2 h_S_) main_v6 main_c_1
  let main_v8 : IVec S_ 1 := andi main_v3 main_v7
  let main_v9 : FVec F S256x64x1024 .f32 := Host.absf main_arg2
  let main_cst_2 : FVec F S_ .f32 := constant S_ .f32 0x7F800000#32
  let main_v10 : FVec F S256x64x1024 .f32 := broadcastInDim S256x64x1024 ![] bcast_S_S256x64x1024 main_cst_2
  let main_v11 : IVec S256x64x1024 1 := cmpf .olt main_v9 main_v10
  let main_c_3 : IVec S_ 1 := constantI S_ 1 1#1
  let main_v12 : IVec S_ 1 := (fun x v => Host.reduce IntOp.andi x v reducesTo_S256x64x1024_S_d0_1_2 h_S_) main_v11 main_c_3
  let main_v13 : IVec S_ 1 := andi main_v8 main_v12
  let main_v14 : FVec F S256x64x1024 .f32 := Host.absf main_arg3
  let main_cst_4 : FVec F S_ .f32 := constant S_ .f32 0x7F800000#32
  let main_v15 : FVec F S256x64x1024 .f32 := broadcastInDim S256x64x1024 ![] bcast_S_S256x64x1024 main_cst_4
  let main_v16 : IVec S256x64x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S1024x4096 : Shape := ⟨2, ![1024, 4096]⟩
abbrev S512x4096 : Shape := ⟨2, ![512, 4096]⟩
abbrev S4096 : Shape := ⟨1, ![4096]⟩
abbrev S1x4096 : Shape := ⟨2, ![1, 4096]⟩
abbrev S4x64x512 : Shape := ⟨3, ![4, 64, 512]⟩
abbrev S4x64x1024 : Shape := ⟨3, ![4, 64, 1024]⟩
abbrev S4x64x1 : Shape := ⟨3, ![4, 64, 1]⟩
abbrev S256x1024 : Shape := ⟨2, ![256, 1024]⟩
abbrev S256x512 : Shape := ⟨2, ![256, 512]⟩
abbrev S256x4096 : Shape := ⟨2, ![256, 4096]⟩

abbrev nBuf : Space → Nat
  | .hbm => 36
  | .vmem => 23
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S1024, .f32⟩
  | .hbm, ⟨18, _⟩ => ⟨S512x1024, .f32⟩
  | .hbm, ⟨19, _⟩ => ⟨S1024, .f32⟩
  | .hbm, ⟨20, _⟩ => ⟨S512x1024, .f32⟩
  | .hbm, ⟨21, _⟩ => ⟨S1024, .f32⟩
  | .hbm, ⟨22, _⟩ => ⟨S1024x4096, .f32⟩
  | .hbm, ⟨23, _⟩ => ⟨S1024x4096, .bf16⟩
  | .hbm, ⟨24, _⟩ => ⟨S512x4096, .f32⟩
  | .hbm, ⟨25, _⟩ => ⟨S512x4096, .bf16⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S4096, .f32⟩
  | .hbm, ⟨31, _⟩ => ⟨S1x4096, .f32⟩
  | .hbm, ⟨32, _⟩ => ⟨S256x64x1024, .f32⟩
  | .hbm, ⟨33, _⟩ => ⟨S256x64x1024, .f32⟩
  | .hbm, ⟨34, _⟩ => ⟨S256x64x1024, .f32⟩
  | .hbm, ⟨35, _⟩ => ⟨S256x64x1024, .f32⟩
  | .local _ .vmem, ⟨0, _⟩ => ⟨S4x64x512, .f32⟩
  | .local _ .vmem, ⟨1, _⟩ => ⟨S4x64x512, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | .local _ .vmem, ⟨6, _⟩ => ⟨S4x64x1024, .f32⟩
  | .local _ .vmem, ⟨7, _⟩ => ⟨S4x64x1024, .f32⟩
  | .local _ .vmem, ⟨8, _⟩ => ⟨S4x64x1024, .f32⟩
  | .local _ .vmem, ⟨9, _⟩ => ⟨S4x64x1024, .f32⟩
  | .local _ .vmem, ⟨10, _⟩ => ⟨S4x64x1, .f32⟩
  | .local _ .vmem, ⟨11, _⟩ => ⟨S4x64x1, .f32⟩
  | .local _ .vmem, ⟨12, _⟩ => ⟨S1024x4096, .bf16⟩
  | .local _ .vmem, ⟨13, _⟩ => ⟨S512x4096, .bf16⟩
  | .local _ .vmem, ⟨14, _⟩ => ⟨S1x4096, .f32⟩
  | .local _ .vmem, ⟨15, _⟩ => ⟨S4x64x1024, .f32⟩
  | .local _ .vmem, ⟨16, _⟩ => ⟨S4x64x1024, .f32⟩
  | .local _ .vmem, ⟨17, _⟩ => ⟨S4x64x1024, .f32⟩
  | .local _ .vmem, ⟨18, _⟩ => ⟨S4x64x1024, .f32⟩
  | .local _ .vmem, ⟨19, _⟩ => ⟨S4x64x1024, .f32⟩
  | .local _ .vmem, ⟨20, _⟩ => ⟨S4x64x1024, .f32⟩
  | .local _ .vmem, ⟨21, _⟩ => ⟨S4x64x1024, .f32⟩
  | .local _ .vmem, ⟨22, _⟩ => ⟨S4x64x1024, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10_0 : Ref sig .tc := ⟨.hbm, 32, rfl⟩
abbrev main_v10_1 : Ref sig .tc := ⟨.hbm, 33, rfl⟩
abbrev main_v10_2 : Ref sig .tc := ⟨.hbm, 34, rfl⟩
abbrev main_v10_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S512x1024_S512x1024_S512x1024_S512x1024_S512x4096_d1 : Shape.Concatenates [S512x1024, S512x1024, S512x1024, S512x1024] S512x4096 1
  concatenates_S1024_S1024_S1024_S1024_S4096_d0 : Shape.Concatenates [S1024, S1024, S1024, S1024] S4096 0
  shapeCasts_S4096_S1x4096 : S4096.ShapeCasts S1x4096
  inb_S4x64x1024_S4x64x1024_0_0_0 : ∀ a, (![0, 0, 0] : Fin 3 → Nat) a + S4x64x1024.size a ≤ S4x64x1024.size a
  h_S4x64x1024 : 0 < S4x64x1024.numel
  shapeCasts_S4x64x1024_S256x1024 : S4x64x1024.ShapeCasts S256x1024
  inb_S4x64x512_S4x64x512_0_0_0 : ∀ a, (![0, 0, 0] : Fin 3 → Nat) a + S4x64x512.size a ≤ S4x64x512.size a
  h_S4x64x512 : 0 < S4x64x512.numel
  shapeCasts_S4x64x512_S256x512 : S4x64x512.ShapeCasts S256x512
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  shapeCasts_S256x1024_S4x64x1024 : S256x1024.ShapeCasts S4x64x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S4x64x1_S4x64x1_0_0_0 : ∀ a, (![0, 0, 0] : Fin 3 → Nat) a + S4x64x1.size a ≤ S4x64x1.size a
  h_S4x64x1 : 0 < S4x64x1.numel
  broadcasts_S4x64x1_S4x64x1024 : S4x64x1.Broadcasts S4x64x1024
  dot_S256x1024_S1024x4096_S256x4096_1_0_0_1_n_n_wf : DotDims.WF S256x1024 S1024x4096 S256x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x512.size a ≤ S256x64x512.size a
  hwx0_0 : ∀ i : grid0.Coords, EltTy.bits .f32 = 32 ∨ (Rect.block (s := S256x64x512) S4x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1024.size a ≤ S256x64x1024.size a
  hwx0_1 : ∀ i : grid0.Coords, EltTy.bits .f32 = 32 ∨ (Rect.block (s := S256x64x1024) S4x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1024.size a ≤ S256x64x1024.size a
  hwx0_2 : ∀ i : grid0.Coords, EltTy.bits .f32 = 32 ∨ (Rect.block (s := S256x64x1024) S4x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x1024.size a ≤ S256x64x1024.size a
  hwx0_3 : ∀ i : grid0.Coords, EltTy.bits .f32 = 32 ∨ (Rect.block (s := S256x64x1024) S4x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x64x1024.size a ≤ S256x64x1024.size a
  hwx0_4 : ∀ i : grid0.Coords, EltTy.bits .f32 = 32 ∨ (Rect.block (s := S256x64x1024) S4x64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x1.size a ≤ S256x64x1.size a
  hwx0_5 : ∀ i : grid0.Coords, EltTy.bits .f32 = 32 ∨ (Rect.block (s := S256x64x1) S4x64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x4096.size a ≤ S512x4096.size a
  hwx0_7 : ∀ i : grid0.Coords, EltTy.bits .bf16 = 32 ∨ (Rect.block (s := S512x4096) S512x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x64x1024.size a ≤ S256x64x1024.size a
  hwx0_9 : ∀ i : grid0.Coords, EltTy.bits .f32 = 32 ∨ (Rect.block (s := S256x64x1024) S4x64x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x64x1024.size a ≤ S256x64x1024.size a
  hwx0_10 : ∀ i : grid0.Coords, EltTy.bits .f32 = 32 ∨ (Rect.block (s := S256x64x1024) S4x64x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x64x1024.size a ≤ S256x64x1024.size a
  hwx0_11 : ∀ i : grid0.Coords, EltTy.bits .f32 = 32 ∨ (Rect.block (s := S256x64x1024) S4x64x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x64x1024.size a ≤ S256x64x1024.size a
  hwx0_12 : ∀ i : grid0.Coords, EltTy.bits .f32 = 32 ∨ (Rect.block (s := S256x64x1024) S4x64x1024.size (cc0_transform_12 i) (hinb0_12 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S4x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S4x64x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S4x64x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S4x64x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_3) S4x64x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S512x1024 : Shape := ⟨2, ![512, 1024]⟩
abbrev S1024x4096 : Shape := ⟨2, ![1024, 4096]⟩
abbrev S512x4096 : Shape := ⟨2, ![512, 4096]⟩
abbrev S4096 : Shape := ⟨1, ![4096]⟩
abbrev S256x64x4096 : Shape := ⟨3, ![256, 64, 4096]⟩
abbrev S1x1x4096 : Shape := ⟨3, ![1, 1, 4096]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S1024, .f32⟩
  | .hbm, ⟨18, _⟩ => ⟨S512x1024, .f32⟩
  | .hbm, ⟨19, _⟩ => ⟨S1024, .f32⟩
  | .hbm, ⟨20, _⟩ => ⟨S512x1024, .f32⟩
  | .hbm, ⟨21, _⟩ => ⟨S1024, .f32⟩
  | .hbm, ⟨22, _⟩ => ⟨S1024x4096, .f32⟩
  | .hbm, ⟨23, _⟩ => ⟨S512x4096, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S4096, .f32⟩
  | .hbm, ⟨29, _⟩ => ⟨S256x64x4096, .f32⟩
  | .hbm, ⟨30, _⟩ => ⟨S256x64x4096, .f32⟩
  | .hbm, ⟨31, _⟩ => ⟨S256x64x4096, .f32⟩
  | .hbm, ⟨32, _⟩ => ⟨S1x1x4096, .f32⟩
  | .hbm, ⟨33, _⟩ => ⟨S256x64x4096, .f32⟩
  | .hbm, ⟨34, _⟩ => ⟨S256x64x4096, .f32⟩
  | .hbm, ⟨35, _⟩ => ⟨S256x64x1024, .f32⟩
  | .hbm, ⟨36, _⟩ => ⟨S256x64x1024, .f32⟩
  | .hbm, ⟨37, _⟩ => ⟨S256x64x1024, .f32⟩
  | .hbm, ⟨38, _⟩ => ⟨S256x64x1024, .f32⟩
  | .hbm, ⟨39, _⟩ => ⟨S256x64x1024, .f32⟩
  | .hbm, ⟨40, _⟩ => ⟨S256x64x1024, .f32⟩
  | .hbm, ⟨41, _⟩ => ⟨S256x64x1024, .f32⟩
  | .hbm, ⟨42, _⟩ => ⟨S256x64x1024, .f32⟩
  | .hbm, ⟨43, _⟩ => ⟨S256x64x1024, .f32⟩
  | .hbm, ⟨44, _⟩ => ⟨S256x64x1024, .f32⟩
  | .hbm, ⟨45, _⟩ => ⟨S256x64x1024, .f32⟩
  | .hbm, ⟨46, _⟩ => ⟨S256x64x1024, .f32⟩
  | .hbm, ⟨47, _⟩ => ⟨S256x64x1024, .f32⟩
  | .hbm, ⟨48, _⟩ => ⟨S_, .f32⟩
  | .hbm, ⟨49, _⟩ => ⟨S256x64x1024, .f32⟩
  | .hbm, ⟨50, _⟩ => ⟨S256x64x1024, .f32⟩
  | .hbm, ⟨51, _⟩ => ⟨S_, .f32⟩
  | .hbm, ⟨52, _⟩ => ⟨S256x64x1024, .f32⟩
  | .hbm, ⟨53, _⟩ => ⟨S256x64x1024, .f32⟩
  | .hbm, ⟨54, _⟩ => ⟨S256x64x1024, .f32⟩
  | .hbm, ⟨55, _⟩ => ⟨S256x64x1024, .f32⟩
  | .hbm, ⟨56, _⟩ => ⟨S256x64x1024, .f32⟩
  | .hbm, ⟨57, _⟩ => ⟨S256x64x1024, .f32⟩
  | .hbm, ⟨58, _⟩ => ⟨S256x64x1024, .f32⟩
  | .hbm, ⟨59, _⟩ => ⟨S256x64x1024, .f32⟩
  | .hbm, ⟨60, _⟩ => ⟨S256x64x1024, .f32⟩
  | .hbm, ⟨61, _⟩ => ⟨S256x64x1024, .f32⟩
  | .hbm, ⟨62, _⟩ => ⟨S_, .f32⟩
  | .hbm, ⟨63, _⟩ => ⟨S256x64x1, .f32⟩
  | .hbm, ⟨64, _⟩ => ⟨S256x64x1, .f32⟩
  | .hbm, ⟨65, _⟩ => ⟨S256x64x1024, .f32⟩
  | .hbm, ⟨66, _⟩ => ⟨S256x64x1024, .f32⟩
  | .hbm, ⟨67, _⟩ => ⟨S256x64x1024, .f32⟩
  | .hbm, ⟨68, _⟩ => ⟨S256x64x1024, .f32⟩
  | .hbm, ⟨69, _⟩ => ⟨S256x64x1024, .f32⟩
  | .hbm, ⟨70, _⟩ => ⟨S256x64x1024, .f32⟩
  | .hbm, ⟨71, _⟩ => ⟨S256x64x1024, .f32⟩
  | .hbm, ⟨72, _⟩ => ⟨S_, .f32⟩
  | .hbm, ⟨73, _⟩ => ⟨S256x64x1, .f32⟩
  | .hbm, ⟨74, _⟩ => ⟨S256x64x1, .f32⟩
  | .hbm, ⟨75, _⟩ => ⟨S256x64x1024, .f32⟩
  | .hbm, ⟨76, _⟩ => ⟨S256x64x1024, .f32⟩
  | .hbm, ⟨77, _⟩ => ⟨S256x64x1024, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_1 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S512x1024_S512x1024_S512x1024_S512x1024_S512x4096_d1 : Shape.Concatenates [S512x1024, S512x1024, S512x1024, S512x1024] S512x4096 1
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S256x64x4096_0_1_2 : S1x1x4096.BroadcastsInDim S256x64x4096 (![0, 1, 2] : Fin 3 → Fin S256x64x4096.rank)
  slices_S256x64x4096_S256x64x1024_0_0_0 : S256x64x4096.Slices ![0, 0, 0] S256x64x1024
  slices_S256x64x4096_S256x64x1024_0_0_1024 : S256x64x4096.Slices ![0, 0, 1024] S256x64x1024
  slices_S256x64x4096_S256x64x1024_0_0_2048 : S256x64x4096.Slices ![0, 0, 2048] S256x64x1024
  slices_S256x64x4096_S256x64x1024_0_0_3072 : S256x64x4096.Slices ![0, 0, 3072] S256x64x1024
  bcast_S_S256x64x1024 : S_.BroadcastsInDim S256x64x1024 (![] : Fin 0 → Fin S256x64x1024.rank)
  bcast_S256x64x1_S256x64x1024_0_1_2 : S256x64x1.BroadcastsInDim S256x64x1024 (![0, 1, 2] : Fin 3 → Fin S256x64x1024.rank)
  bcast_S_S256x64x1 : S_.BroadcastsInDim S256x64x1 (![] : Fin 0 → Fin S256x64x1.rank)
  dot_S256x64x1024_S1024x4096_S256x64x4096_2_0_01_1_n_n_wf : DotDims.WF S256x64x1024 S1024x4096 S256x64x4096 [2] [0] [0, 1] [1] [] []
  dot_S256x64x512_S512x4096_S256x64x4096_2_0_01_1_n_n_wf : DotDims.WF S256x64x512 S512x4096 S256x64x4096 [2] [0] [0, 1] [1] [] []

variable [Facts₀]

def dot_S256x64x1024_S1024x4096_S256x64x4096_2_0_01_1_n_n : DotDims S256x64x1024 S1024x4096 S256x64x4096 where
  lhsContracting := [2]
  rhsContracting := [0]
  lhsNonContracting := [0, 1]
  rhsNonContracting := [1]
  lhsBatch := []
  rhsBatch := []
  wf := dot_S256x64x1024_S1024x4096_S256x64x4096_2_0_01_1_n_n_wf
def dot_S256x64x512_S512x4096_S256x64x4096_2_0_01_1_n_n : DotDims S256x64x512 S512x4096 S256x64x4096 where
  lhsContracting := [2]
  rhsContracting := [0]
  lhsNonContracting := [0, 1]
  rhsNonContracting := [1]
  lhsBatch := []
  rhsBatch := []
  wf := dot_S256x64x512_S512x4096_S256x64x4096_2_0_01_1_n_n_wf

class Facts : Prop extends Facts₀ where

variable [Facts]
-- ==== Proof.K.Entry.lean ====
/-
  The program up to its one launch. Ten host operations come first: the four square projection matrices are
  joined along their columns into one 1024 x 4096 matrix and rounded, the four 512 x 1024 matrices likewise into
  one 512 x 4096 matrix, the eight bias vectors are added in pairs, joined into one vector of 4096 entries and
  re-laid as a single row. None of them writes an argument array, so the launch finds every argument as it was
  at the start; and an input window's staging buffer holds, at every grid point, the block of its array that the
  point's index names, whether the pipeline fetched it at that point or kept it from the point before.
-/
import proofs.«178776_j31688268710611_2_alg».proof.Proof.Gen.Kernel.Launch
import proofs.«178776_j31688268710611_2_alg».proof.Proof.Gen.Kernel.Skeleton
import proofs.«178776_j31688268710611_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer of core `c` holds when the launch begins: the start memory after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results of the host operations is found by the launch as it was at the start. -/
theorem V_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    repeat' apply And.intro
    all_goals (apply StableHlo.devRef_ne_of_ne; assumption)))

/-- Each argument array is no result of a host operation. -/
theorem V_main_arg0 (c : Dev nD) : V m c main_arg0 = m ((c : Thread nD τ).loc main_arg0) :=
  V_unwritten m c main_arg0 (by decide) (by decide) (by decide) (by decide) (by decide) (by decide) (by decide) (by decide) (by decide) (by decide)
theorem V_main_arg1 (c : Dev nD) : V m c main_arg1 = m ((c : Thread nD τ).loc main_arg1) :=
  V_unwritten m c main_arg1 (by decide) (by decide) (by decide) (by decide) (by decide) (by decide) (by decide) (by decide) (by decide) (by decide)
theorem V_main_arg2 (c : Dev nD) : V m c main_arg2 = m ((c : Thread nD τ).loc main_arg2) :=
  V_unwritten m c main_arg2 (by decide) (by decide) (by decide) (by decide) (by decide) (by decide) (by decide) (by decide) (by decide) (by decide)
theorem V_main_arg3 (c : Dev nD) : V m c main_arg3 = m ((c : Thread nD τ).loc main_arg3) :=
  V_unwritten m c main_arg3 (by decide) (by decide) (by decide) (by decide) (by decide) (by decide) (by decide) (by decide) (by decide) (by decide)
theorem V_main_arg4 (c : Dev nD) : V m c main_arg4 = m ((c : Thread nD τ).loc main_arg4) :=
  V_unwritten m c main_arg4 (by decide) (by decide) (by decide) (by decide) (by decide) (by decide) (by decide) (by decide) (by decide) (by decide)
theorem V_main_arg5 (c : Dev nD) : V m c main_arg5 = m ((c : Thread nD τ).loc main_arg5) :=
  V_unwritten m c main_arg5 (by decide) (by decide) (by decide) (by decide) (by decide) (by decide) (by decide) (by decide) (by decide) (by decide)
theorem V_main_arg6 (c : Dev nD) : V m c main_arg6 = m ((c : Thread nD τ).loc main_arg6) :=
  V_unwritten m c main_arg6 (by decide) (by decide) (by decide) (by decide) (by decide) (by decide) (by decide) (by decide) (by decide) (by decide)
theorem V_main_arg7 (c : Dev nD) : V m c main_arg7 = m ((c : Thread nD τ).loc main_arg7) :=
  V_unwritten m c main_arg7 (by decide) (by decide) (by decide) (by decide) (by decide) (by decide) (by decide) (by decide) (by decide) (by decide)
theorem V_main_arg8 (c : Dev nD) : V m c main_arg8 = m ((c : Thread nD τ).loc main_arg8) :=
  V_unwritten m c main_arg8 (by decide) (by decide) (by decide) (by decide) (by decide) (by decide) (by decide) (by decide) (by decide) (by decide)
theorem V_main_arg9 (c : Dev nD) : V m c main_arg9 = m ((c : Thread nD τ).loc main_arg9) :=
  V_unwritten m c main_arg9 (by decide) (by decide) (by decide) (by decide) (by decide) (by decide) (by decide) (by decide) (by decide) (by decide)
theorem V_main_arg10 (c : Dev nD) : V m c main_arg10 = m ((c : Thread nD τ).loc main_arg10) :=
  V_unwritten m c main_arg10 (by decide) (by decide) (by decide) (by decide) (by decide) (by decide) (by decide) (by decide) (by decide) (by decide)
theorem V_main_arg11 (c : Dev nD) : V m c main_arg11 = m ((c : Thread nD τ).loc main_arg11) :=
  V_unwritten m c main_arg11 (by decide) (by decide) (by decide) (by decide) (by decide) (by decide) (by decide) (by decide) (by decide) (by decide)
theorem V_main_arg12 (c : Dev nD) : V m c main_arg12 = m ((c : Thread nD τ).loc main_arg12) :=
  V_unwritten m c main_arg12 (by decide) (by decide) (by decide) (by decide) (by decide) (by decide) (by decide) (by decide) (by decide) (by decide)
theorem V_main_arg13 (c : Dev nD) : V m c main_arg13 = m ((c : Thread nD τ).loc main_arg13) :=
  V_unwritten m c main_arg13 (by decide) (by decide) (by decide) (by decide) (by decide) (by decide) (by decide) (by decide) (by decide) (by decide)
theorem V_main_arg14 (c : Dev nD) : V m c main_arg14 = m ((c : Thread nD τ).loc main_arg14) :=
  V_unwritten m c main_arg14 (by decide) (by decide) (by decide) (by decide) (by decide) (by decide) (by decide) (by decide) (by decide) (by decide)
theorem V_main_arg15 (c : Dev nD) : V m c main_arg15 = m ((c : Thread nD τ).loc main_arg15) :=
  V_unwritten m c main_arg15 (by decide) (by decide) (by decide) (by decide) (by decide) (by decide) (by decide) (by decide) (by decide) (by decide)
theorem V_main_arg16 (c : Dev nD) : V m c main_arg16 = m ((c : Thread nD τ).loc main_arg16) :=
  V_unwritten m c main_arg16 (by decide) (by decide) (by decide) (by decide) (by decide) (by decide) (by decide) (by decide) (by decide) (by decide)
theorem V_main_arg17 (c : Dev nD) : V m c main_arg17 = m ((c : Thread nD τ).loc main_arg17) :=
  V_unwritten m c main_arg17 (by decide) (by decide) (by decide) (by decide) (by decide) (by decide) (by decide) (by decide) (by decide) (by decide)
theorem V_main_arg18 (c : Dev nD) : V m c main_arg18 = m ((c : Thread nD τ).loc main_arg18) :=
  V_unwritten m c main_arg18 (by decide) (by decide) (by decide) (by decide) (by decide) (by decide) (by decide) (by decide) (by decide) (by decide)
theorem V_main_arg19 (c : Dev nD) : V m c main_arg19 = m ((c : Thread nD τ).loc main_arg19) :=
  V_unwritten m c main_arg19 (by decide) (by decide) (by decide) (by decide) (by decide) (by decide) (by decide) (by decide) (by decide) (by decide)
theorem V_main_arg20 (c : Dev nD) : V m c main_arg20 = m ((c : Thread nD τ).loc main_arg20) :=
  V_unwritten m c main_arg20 (by decide) (by decide) (by decide) (by decide) (by decide) (by decide) (by decide) (by decide) (by decide) (by decide)
theorem V_main_arg21 (c : Dev nD) : V m c main_arg21 = m ((c : Thread nD τ).loc main_arg21) :=
  V_unwritten m c main_arg21 (by decide) (by decide) (by decide) (by decide) (by decide) (by decide) (by decide) (by decide) (by decide) (by decide)

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Body.lean ====
/-
  One grid point of the kernel. It reads a block of four batch rows of each of the six streamed arrays and the
  three resident operands whole; forms the gate pre-activations as two matrix products plus the bias row, cut
  into four column bands; and writes the four result blocks, each whole and each once. So each result's staging
  buffer ends holding one function of the nine input blocks, whatever it held before.
-/
import proofs.«178776_j31688268710611_2_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rZ : Rect S4x64x512 := Rect.unit (s := S4x64x512) ![0, 0, 0] S4x64x512.size inb_S4x64x512_S4x64x512_0_0_0
abbrev rH : Rect S4x64x1024 := Rect.unit (s := S4x64x1024) ![0, 0, 0] S4x64x1024.size inb_S4x64x1024_S4x64x1024_0_0_0
abbrev rM : Rect S4x64x1 := Rect.unit (s := S4x64x1) ![0, 0, 0] S4x64x1.size inb_S4x64x1_S4x64x1_0_0_0
abbrev rWh : Rect S1024x4096 := Rect.unit (s := S1024x4096) ![0, 0] S1024x4096.size inb_S1024x4096_S1024x4096_0_0
abbrev rWz : Rect S512x4096 := Rect.unit (s := S512x4096) ![0, 0] S512x4096.size inb_S512x4096_S512x4096_0_0
abbrev rB : Rect S1x4096 := Rect.unit (s := S1x4096) ![0, 0] S1x4096.size inb_S1x4096_S1x4096_0_0

/-- The new cell state's block, from the nine input blocks (x0 the z block, x1 h, x2 c, x3 the stabiliser, x4 the
    normaliser, x5 the mask, x6 and x7 the two rounded weight matrices, x8 the bias row). -/
def outC (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay5 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (k0_pay11 (View.ld x1 rH) (View.ld x0 rZ) (View.ld x6 rWh) (View.ld x7 rWz) (View.ld x8 rB)) (View.ld x3 rH) (View.ld x2 rH) (View.ld x5 rM)⟩]
/-- The new stabiliser's block. -/
def outM (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay1 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (View.ld x3 rH)⟩]
/-- The new hidden state's block. -/
def outH (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay6 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (k0_pay10 (View.ld x1 rH) (View.ld x0 rZ) (View.ld x6 rWh) (View.ld x7 rWz) (View.ld x8 rB)) (k0_pay11 (View.ld x1 rH) (View.ld x0 rZ) (View.ld x6 rWh) (View.ld x7 rWz) (View.ld x8 rB)) (View.ld x3 rH) (View.ld x2 rH) (View.ld x4 rH) (View.ld x1 rH) (View.ld x5 rM)⟩]
/-- The new normaliser's block. -/
def outN (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay4 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (View.ld x3 rH) (View.ld x4 rH)⟩]

/-- One whole-block store covers the block. -/
theorem cover_whole (p0 : Vec F S4x64x1024 .f32) (y : S4x64x1024.Idx) :
    ∃ pc ∈ ([⟨rH, p0⟩] : List (View.Piece (Elt F) S4x64x1024 .f32)), y ∈ pc.1.set :=
  View.cover_of_tiled [⟨rH, p0⟩] S4x64x1024.size (by rfl) y

set_option maxHeartbeats 1000000 in
/-- The body, run on whole staging buffers: the inputs' at read contents `x0 … x8`, the results' at anything. It ends
    with the inputs' as they were and each result's at its function of the inputs. -/
theorem sound_kernel (c : Dev nD) (E : Set ℕ) (i : grid0.Coords) (arg1 : Memref sig .tc .vmem S4x64x512 .f32) (harg1 : arg1.IsWhole) (arg2 : Memref sig .tc .vmem S4x64x1024 .f32) (harg2 : arg2.IsWhole) (arg3 : Memref sig .tc .vmem S4x64x1024 .f32) (harg3 : arg3.IsWhole) (arg4 : Memref sig .tc .vmem S4x64x1024 .f32) (harg4 : arg4.IsWhole) (arg5 : Memref sig .tc .vmem S4x64x1024 .f32) (harg5 : arg5.IsWhole) (arg6 : Memref sig .tc .vmem S4x64x1 .f32) (harg6 : arg6.IsWhole) (arg7 : Memref sig .tc .vmem S1024x4096 .bf16) (harg7 : arg7.IsWhole) (arg8 : Memref sig .tc .vmem S512x4096 .bf16) (harg8 : arg8.IsWhole) (arg9 : Memref sig .tc .vmem S1x4096 .f32) (harg9 : arg9.IsWhole) (arg10 : Memref sig .tc .vmem S4x64x1024 .f32) (harg10 : arg10.IsWhole) (arg11 : Memref sig .tc .vmem S4x64x1024 .f32) (harg11 : arg11.IsWhole) (arg12 : Memref sig .tc .vmem S4x64x1024 .f32) (harg12 : arg12.IsWhole) (arg13 : Memref sig .tc .vmem S4x64x1024 .f32) (harg13 : arg13.IsWhole)
    (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outC x0 x1 x2 x3 x4 x5 x6 x7 x8) ∗ owns (c : Thread nD τ) arg11 fullShare (outM x0 x1 x2 x3 x4 x5 x6 x7 x8) ∗ owns (c : Thread nD τ) arg12 fullShare (outH x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_whole _)
  isplitl [H10]
  · iexists _; isplitr
    swap; · iexact H10
    ipureintro
    try dsimp only
    exact View.read_writes_eq_canon _ _ _ (cover_whole _)
  isplitl [H11]
  · iexists _; isplitr
    swap; · iexact H11
    ipureintro
    try dsimp only
    exact View.read_writes_eq_canon _ _ _ (cover_whole _)
  iexists _; isplitr
  swap; · iexact H12
  ipureintro
  try dsimp only
  exact View.read_writes_eq_canon _ _ _ (cover_whole _)

end Cert.Kernel.Hand

end
-- ==== Proof.K.Run.lean ====
/-
  The whole run. The proof data say, per window and grid point, what the window's staging buffer holds once the
  body has run there: an input's its block, a result's its function of the nine input blocks. With the body's
  run at every point this gives the launch's run: every execution ends, nothing faults, each result array holds
  what the write-backs left and every other array what the launch found — for the arguments, what they held at
  the start.
-/
import proofs.«178776_j31688268710611_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outC (iblk m c 0 t) (iblk m c 1 t) (iblk m c 2 t) (iblk m c 3 t) (iblk m c 4 t) (iblk m c 5 t) (iblk m c 6 t) (iblk m c 7 t) (iblk m c 8 t)
    | ⟨10, _⟩ => outM (iblk m c 0 t) (iblk m c 1 t) (iblk m c 2 t) (iblk m c 3 t) (iblk m c 4 t) (iblk m c 5 t) (iblk m c 6 t) (iblk m c 7 t) (iblk m c 8 t)
    | ⟨11, _⟩ => outH (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outC (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = outM (iblk m c 0 t) (iblk m c 1 t) (iblk m c 2 t) (iblk m c 3 t) (iblk m c 4 t) (iblk m c 5 t) (iblk m c 6 t) (iblk m c 7 t) (iblk m c 8 t) := by dsimp only [dats]
theorem after_11 (c : Dev nD) (t : Fin cfg0.N) : (dats m 0 c).after 11 t = outH (iblk m c 0 t) (iblk m c 1 t) (iblk m c 2 t) (iblk m c 3 t) (iblk m c 4 t) (iblk m c 5 t) (iblk m c 6 t) (iblk m c 7 t) (iblk m c 8 t) := by dsimp only [dats]
theorem after_12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d
theorem before_5 (c : Dev nD) (t : Fin cfg0.N) (d) : (dats m 0 c).before 5 t d = iblk m c 5 t :=
  before_in5 m (dats m 0 c) (A_eq m c 5) (after_5 m c) t d
theorem before_6 (c : Dev nD) (t : Fin cfg0.N) (d) : (dats m 0 c).before 6 t d = iblk m c 6 t :=
  before_in6 m (dats m 0 c) (A_eq m c 6) (after_6 m c) t d
theorem before_7 (c : Dev nD) (t : Fin cfg0.N) (d) : (dats m 0 c).before 7 t d = iblk m c 7 t :=
  before_in7 m (dats m 0 c) (A_eq m c 7) (after_7 m c) t d
theorem before_8 (c : Dev nD) (t : Fin cfg0.N) (d) : (dats m 0 c).before 8 t d = iblk m c 8 t :=
  before_in8 m (dats m 0 c) (A_eq m c 8) (after_8 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program ends without a fault, each window's array at what the proof data
    compute and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From such a run: the argument arrays end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Hand

end
-- ==== Proof.KI.Entry.lean ====
/-
  The program up to its one launch. Ten host operations come first: the four square projection matrices are
  joined along their columns into one 1024 x 4096 matrix and rounded, the four 512 x 1024 matrices likewise into
  one 512 x 4096 matrix, the eight bias vectors are added in pairs, joined into one vector of 4096 entries and
  re-laid as a single row. None of them writes an argument array, so the launch finds every argument as it was
  at the start; and an input window's staging buffer holds, at every grid point, the block of its array that the
  point's index names, whether the pipeline fetched it at that point or kept it from the point before.
-/
import proofs.«178776_j31688268710611_2_alg».proof.Proof.Gen.KernelIdeal.Launch
import proofs.«178776_j31688268710611_2_alg».proof.Proof.Gen.KernelIdeal.Skeleton
import proofs.«178776_j31688268710611_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer of core `c` holds when the launch begins: the start memory after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results of the host operations is found by the launch as it was at the start. -/
theorem V_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    repeat' apply And.intro
    all_goals (apply StableHlo.devRef_ne_of_ne; assumption)))

/-- Each argument array is no result of a host operation. -/
theorem V_main_arg0 (c : Dev nD) : V m c main_arg0 = m ((c : Thread nD τ).loc main_arg0) :=
  V_unwritten m c main_arg0 (by decide) (by decide) (by decide) (by decide) (by decide) (by decide) (by decide) (by decide) (by decide) (by decide)
theorem V_main_arg1 (c : Dev nD) : V m c main_arg1 = m ((c : Thread nD τ).loc main_arg1) :=
  V_unwritten m c main_arg1 (by decide) (by decide) (by decide) (by decide) (by decide) (by decide) (by decide) (by decide) (by decide) (by decide)
theorem V_main_arg2 (c : Dev nD) : V m c main_arg2 = m ((c : Thread nD τ).loc main_arg2) :=
  V_unwritten m c main_arg2 (by decide) (by decide) (by decide) (by decide) (by decide) (by decide) (by decide) (by decide) (by decide) (by decide)
theorem V_main_arg3 (c : Dev nD) : V m c main_arg3 = m ((c : Thread nD τ).loc main_arg3) :=
  V_unwritten m c main_arg3 (by decide) (by decide) (by decide) (by decide) (by decide) (by decide) (by decide) (by decide) (by decide) (by decide)
theorem V_main_arg4 (c : Dev nD) : V m c main_arg4 = m ((c : Thread nD τ).loc main_arg4) :=
  V_unwritten m c main_arg4 (by decide) (by decide) (by decide) (by decide) (by decide) (by decide) (by decide) (by decide) (by decide) (by decide)
theorem V_main_arg5 (c : Dev nD) : V m c main_arg5 = m ((c : Thread nD τ).loc main_arg5) :=
  V_unwritten m c main_arg5 (by decide) (by decide) (by decide) (by decide) (by decide) (by decide) (by decide) (by decide) (by decide) (by decide)
theorem V_main_arg6 (c : Dev nD) : V m c main_arg6 = m ((c : Thread nD τ).loc main_arg6) :=
  V_unwritten m c main_arg6 (by decide) (by decide) (by decide) (by decide) (by decide) (by decide) (by decide) (by decide) (by decide) (by decide)
theorem V_main_arg7 (c : Dev nD) : V m c main_arg7 = m ((c : Thread nD τ).loc main_arg7) :=
  V_unwritten m c main_arg7 (by decide) (by decide) (by decide) (by decide) (by decide) (by decide) (by decide) (by decide) (by decide) (by decide)
theorem V_main_arg8 (c : Dev nD) : V m c main_arg8 = m ((c : Thread nD τ).loc main_arg8) :=
  V_unwritten m c main_arg8 (by decide) (by decide) (by decide) (by decide) (by decide) (by decide) (by decide) (by decide) (by decide) (by decide)
theorem V_main_arg9 (c : Dev nD) : V m c main_arg9 = m ((c : Thread nD τ).loc main_arg9) :=
  V_unwritten m c main_arg9 (by decide) (by decide) (by decide) (by decide) (by decide) (by decide) (by decide) (by decide) (by decide) (by decide)
theorem V_main_arg10 (c : Dev nD) : V m c main_arg10 = m ((c : Thread nD τ).loc main_arg10) :=
  V_unwritten m c main_arg10 (by decide) (by decide) (by decide) (by decide) (by decide) (by decide) (by decide) (by decide) (by decide) (by decide)
theorem V_main_arg11 (c : Dev nD) : V m c main_arg11 = m ((c : Thread nD τ).loc main_arg11) :=
  V_unwritten m c main_arg11 (by decide) (by decide) (by decide) (by decide) (by decide) (by decide) (by decide) (by decide) (by decide) (by decide)
theorem V_main_arg12 (c : Dev nD) : V m c main_arg12 = m ((c : Thread nD τ).loc main_arg12) :=
  V_unwritten m c main_arg12 (by decide) (by decide) (by decide) (by decide) (by decide) (by decide) (by decide) (by decide) (by decide) (by decide)
theorem V_main_arg13 (c : Dev nD) : V m c main_arg13 = m ((c : Thread nD τ).loc main_arg13) :=
  V_unwritten m c main_arg13 (by decide) (by decide) (by decide) (by decide) (by decide) (by decide) (by decide) (by decide) (by decide) (by decide)
theorem V_main_arg14 (c : Dev nD) : V m c main_arg14 = m ((c : Thread nD τ).loc main_arg14) :=
  V_unwritten m c main_arg14 (by decide) (by decide) (by decide) (by decide) (by decide) (by decide) (by decide) (by decide) (by decide) (by decide)
theorem V_main_arg15 (c : Dev nD) : V m c main_arg15 = m ((c : Thread nD τ).loc main_arg15) :=
  V_unwritten m c main_arg15 (by decide) (by decide) (by decide) (by decide) (by decide) (by decide) (by decide) (by decide) (by decide) (by decide)
theorem V_main_arg16 (c : Dev nD) : V m c main_arg16 = m ((c : Thread nD τ).loc main_arg16) :=
  V_unwritten m c main_arg16 (by decide) (by decide) (by decide) (by decide) (by decide) (by decide) (by decide) (by decide) (by decide) (by decide)
theorem V_main_arg17 (c : Dev nD) : V m c main_arg17 = m ((c : Thread nD τ).loc main_arg17) :=
  V_unwritten m c main_arg17 (by decide) (by decide) (by decide) (by decide) (by decide) (by decide) (by decide) (by decide) (by decide) (by decide)
theorem V_main_arg18 (c : Dev nD) : V m c main_arg18 = m ((c : Thread nD τ).loc main_arg18) :=
  V_unwritten m c main_arg18 (by decide) (by decide) (by decide) (by decide) (by decide) (by decide) (by decide) (by decide) (by decide) (by decide)
theorem V_main_arg19 (c : Dev nD) : V m c main_arg19 = m ((c : Thread nD τ).loc main_arg19) :=
  V_unwritten m c main_arg19 (by decide) (by decide) (by decide) (by decide) (by decide) (by decide) (by decide) (by decide) (by decide) (by decide)
theorem V_main_arg20 (c : Dev nD) : V m c main_arg20 = m ((c : Thread nD τ).loc main_arg20) :=
  V_unwritten m c main_arg20 (by decide) (by decide) (by decide) (by decide) (by decide) (by decide) (by decide) (by decide) (by decide) (by decide)
theorem V_main_arg21 (c : Dev nD) : V m c main_arg21 = m ((c : Thread nD τ).loc main_arg21) :=
  V_unwritten m c main_arg21 (by decide) (by decide) (by decide) (by decide) (by decide) (by decide) (by decide) (by decide) (by decide) (by decide)

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Body.lean ====
/-
  One grid point of the kernel. It reads a block of four batch rows of each of the six streamed arrays and the
  three resident operands whole; forms the gate pre-activations as two matrix products plus the bias row, cut
  into four column bands; and writes the four result blocks, each whole and each once. So each result's staging
  buffer ends holding one function of the nine input blocks, whatever it held before.
-/
import proofs.«178776_j31688268710611_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rZ : Rect S4x64x512 := Rect.unit (s := S4x64x512) ![0, 0, 0] S4x64x512.size inb_S4x64x512_S4x64x512_0_0_0
abbrev rH : Rect S4x64x1024 := Rect.unit (s := S4x64x1024) ![0, 0, 0] S4x64x1024.size inb_S4x64x1024_S4x64x1024_0_0_0
abbrev rM : Rect S4x64x1 := Rect.unit (s := S4x64x1) ![0, 0, 0] S4x64x1.size inb_S4x64x1_S4x64x1_0_0_0
abbrev rWh : Rect S1024x4096 := Rect.unit (s := S1024x4096) ![0, 0] S1024x4096.size inb_S1024x4096_S1024x4096_0_0
abbrev rWz : Rect S512x4096 := Rect.unit (s := S512x4096) ![0, 0] S512x4096.size inb_S512x4096_S512x4096_0_0
abbrev rB : Rect S1x4096 := Rect.unit (s := S1x4096) ![0, 0] S1x4096.size inb_S1x4096_S1x4096_0_0

/-- The new cell state's block, from the nine input blocks (x0 the z block, x1 h, x2 c, x3 the stabiliser, x4 the
    normaliser, x5 the mask, x6 and x7 the two rounded weight matrices, x8 the bias row). -/
def outC (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay5 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (k0_pay11 (View.ld x1 rH) (View.ld x0 rZ) (View.ld x6 rWh) (View.ld x7 rWz) (View.ld x8 rB)) (View.ld x3 rH) (View.ld x2 rH) (View.ld x5 rM)⟩]
/-- The new stabiliser's block. -/
def outM (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay1 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (View.ld x3 rH)⟩]
/-- The new hidden state's block. -/
def outH (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay6 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (k0_pay10 (View.ld x1 rH) (View.ld x0 rZ) (View.ld x6 rWh) (View.ld x7 rWz) (View.ld x8 rB)) (k0_pay11 (View.ld x1 rH) (View.ld x0 rZ) (View.ld x6 rWh) (View.ld x7 rWz) (View.ld x8 rB)) (View.ld x3 rH) (View.ld x2 rH) (View.ld x4 rH) (View.ld x1 rH) (View.ld x5 rM)⟩]
/-- The new normaliser's block. -/
def outN (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) : Vec F S4x64x1024 .f32 :=
  View.canon [⟨rH, k0_pay4 (k0_pay8 (View.ld x1 rH) (View.ld x0 rZ) (View.ld x6 rWh) (View.ld x7 rWz) (View.ld x8 rB)) (k0_pay9 (View.ld x1 rH) (View.ld x0 rZ) (View.ld x6 rWh) (View.ld x7 rWz) (View.ld x8 rB)) (View.ld x3 rH) (View.ld x4 rH)⟩]

/-- One whole-block store covers the block. -/
theorem cover_whole (p0 : Vec F S4x64x1024 .f32) (y : S4x64x1024.Idx) :
    ∃ pc ∈ ([⟨rH, p0⟩] : List (View.Piece (Elt F) S4x64x1024 .f32)), y ∈ pc.1.set :=
  View.cover_of_tiled [⟨rH, p0⟩] S4x64x1024.size (by rfl) y

set_option maxHeartbeats 1000000 in
/-- The body, run on whole staging buffers: the inputs' at read contents `x0 … x8`, the results' at anything. It ends
    with the inputs' as they were and each result's at its function of the inputs. -/
theorem sound_kernel (c : Dev nD) (E : Set ℕ) (i : grid0.Coords) (arg1 : Memref sig .tc .vmem S4x64x512 .f32) (harg1 : arg1.IsWhole) (arg2 : Memref sig .tc .vmem S4x64x1024 .f32) (harg2 : arg2.IsWhole) (arg3 : Memref sig .tc .vmem S4x64x1024 .f32) (harg3 : arg3.IsWhole) (arg4 : Memref sig .tc .vmem S4x64x1024 .f32) (harg4 : arg4.IsWhole) (arg5 : Memref sig .tc .vmem S4x64x1024 .f32) (harg5 : arg5.IsWhole) (arg6 : Memref sig .tc .vmem S4x64x1 .f32) (harg6 : arg6.IsWhole) (arg7 : Memref sig .tc .vmem S1024x4096 .bf16) (harg7 : arg7.IsWhole) (arg8 : Memref sig .tc .vmem S512x4096 .bf16) (harg8 : arg8.IsWhole) (arg9 : Memref sig .tc .vmem S1x4096 .f32) (harg9 : arg9.IsWhole) (arg10 : Memref sig .tc .vmem S4x64x1024 .f32) (harg10 : arg10.IsWhole) (arg11 : Memref sig .tc .vmem S4x64x1024 .f32) (harg11 : arg11.IsWhole) (arg12 : Memref sig .tc .vmem S4x64x1024 .f32) (harg12 : arg12.IsWhole) (arg13 : Memref sig .tc .vmem S4x64x1024 .f32) (harg13 : arg13.IsWhole)
    (x0 : Vec F S4x64x512 .f32) (x1 : Vec F S4x64x1024 .f32) (x2 : Vec F S4x64x1024 .f32) (x3 : Vec F S4x64x1024 .f32) (x4 : Vec F S4x64x1024 .f32) (x5 : Vec F S4x64x1 .f32) (x6 : Vec F S1024x4096 .bf16) (x7 : Vec F S512x4096 .bf16) (x8 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outC x0 x1 x2 x3 x4 x5 x6 x7 x8) ∗ owns (c : Thread nD τ) arg11 fullShare (outM x0 x1 x2 x3 x4 x5 x6 x7 x8) ∗ owns (c : Thread nD τ) arg12 fullShare (outH x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_whole _)
  isplitl [H10]
  · iexists _; isplitr
    swap; · iexact H10
    ipureintro
    try dsimp only
    exact View.read_writes_eq_canon _ _ _ (cover_whole _)
  isplitl [H11]
  · iexists _; isplitr
    swap; · iexact H11
    ipureintro
    try dsimp only
    exact View.read_writes_eq_canon _ _ _ (cover_whole _)
  iexists _; isplitr
  swap; · iexact H12
  ipureintro
  try dsimp only
  exact View.read_writes_eq_canon _ _ _ (cover_whole _)

end Cert.KernelIdeal.Hand

end
-- ==== Proof.KI.Run.lean ====
/-
  The whole run. The proof data say, per window and grid point, what the window's staging buffer holds once the
  body has run there: an input's its block, a result's its function of the nine input blocks. With the body's
  run at every point this gives the launch's run: every execution ends, nothing faults, each result array holds
  what the write-backs left and every other array what the launch found — for the arguments, what they held at
  the start.
-/
import proofs.«178776_j31688268710611_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outC (iblk m c 0 t) (iblk m c 1 t) (iblk m c 2 t) (iblk m c 3 t) (iblk m c 4 t) (iblk m c 5 t) (iblk m c 6 t) (iblk m c 7 t) (iblk m c 8 t)
    | ⟨10, _⟩ => outM (iblk m c 0 t) (iblk m c 1 t) (iblk m c 2 t) (iblk m c 3 t) (iblk m c 4 t) (iblk m c 5 t) (iblk m c 6 t) (iblk m c 7 t) (iblk m c 8 t)
    | ⟨11, _⟩ => outH (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outC (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = outM (iblk m c 0 t) (iblk m c 1 t) (iblk m c 2 t) (iblk m c 3 t) (iblk m c 4 t) (iblk m c 5 t) (iblk m c 6 t) (iblk m c 7 t) (iblk m c 8 t) := by dsimp only [dats]
theorem after_11 (c : Dev nD) (t : Fin cfg0.N) : (dats m 0 c).after 11 t = outH (iblk m c 0 t) (iblk m c 1 t) (iblk m c 2 t) (iblk m c 3 t) (iblk m c 4 t) (iblk m c 5 t) (iblk m c 6 t) (iblk m c 7 t) (iblk m c 8 t) := by dsimp only [dats]
theorem after_12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d
theorem before_5 (c : Dev nD) (t : Fin cfg0.N) (d) : (dats m 0 c).before 5 t d = iblk m c 5 t :=
  before_in5 m (dats m 0 c) (A_eq m c 5) (after_5 m c) t d
theorem before_6 (c : Dev nD) (t : Fin cfg0.N) (d) : (dats m 0 c).before 6 t d = iblk m c 6 t :=
  before_in6 m (dats m 0 c) (A_eq m c 6) (after_6 m c) t d
theorem before_7 (c : Dev nD) (t : Fin cfg0.N) (d) : (dats m 0 c).before 7 t d = iblk m c 7 t :=
  before_in7 m (dats m 0 c) (A_eq m c 7) (after_7 m c) t d
theorem before_8 (c : Dev nD) (t : Fin cfg0.N) (d) : (dats m 0 c).before 8 t d = iblk m c 8 t :=
  before_in8 m (dats m 0 c) (A_eq m c 8) (after_8 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program ends without a fault, each window's array at what the proof data
    compute and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From such a run: the argument arrays end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Hand

end
-- ==== Proof.Spec.lean ====
/-
  What both programs compute, index by index, over the extended reals.

  For batch row b, position p and feature f, the four gate pre-activations are entries f, 1024 + f, 2048 + f and
  3072 + f of one row of 4096 numbers: the hidden row times the joined 1024 x 4096 matrix, plus the input row
  times the joined 512 x 4096 matrix, plus the joined bias. From them, with the stabiliser m, the cell c, the
  normaliser n, the hidden value h and the mask k at (b, p):
      m' = max (F + m) I,   i = exp (I − m'),   f = exp (F + m − m'),   n' = f·n + i,
      c' = (c·f + tanh Z·i)·k + (1 − k)·c,      h' = sigmoid O · (c' / n') · k + (1 − k)·h.
-/
import Idealize.ShloMosaic.Lib.ValueIdx
import Idealize.ShloMosaic.PureOps.Ideal

noncomputable section

namespace Cert.LstmSpec

open Idealize.ShloMosaic Idealize.ShloMosaic.ValueIdx

/-- The 32-bit word of the float 1.0, read as an extended real. -/
abbrev one : EReal := Ideal.ofBits .f32 0x3F800000#32

theorem one_eq : one = 1 := by
  simp [one, Ideal.ofBits, Ideal.ieee]
  rw [← EReal.coe_mul]
  norm_num

abbrev A3 (n : ℕ) : Type := (⟨3, ![256, 64, n]⟩ : Shape).Idx → EReal
abbrev A2 (r : ℕ) : Type := (⟨2, ![r, 4096]⟩ : Shape).Idx → EReal
abbrev A1 : Type := (⟨1, ![4096]⟩ : Shape).Idx → EReal

/-- Entry `j` of the row of gate pre-activations at batch row `b`, position `p`. -/
def gate (Hi : A3 1024) (Zi : A3 512) (Wh : A2 1024) (Wz : A2 512) (bias : A1) (b : Fin 256) (p : Fin 64) (j : Fin 4096) : EReal :=
  (∑ k : Fin 1024, Hi (ix3 b p k) * Wh (ix2 k j) + ∑ k : Fin 512, Zi (ix3 b p k) * Wz (ix2 k j)) + bias (ix1 j)

/-- The columns of the four bands. -/
abbrev cI (f : Fin 1024) : Fin 4096 := ⟨f.val, by omega⟩
abbrev cF (f : Fin 1024) : Fin 4096 := ⟨1024 + f.val, by omega⟩
abbrev cO (f : Fin 1024) : Fin 4096 := ⟨2048 + f.val, by omega⟩
abbrev cZ (f : Fin 1024) : Fin 4096 := ⟨3072 + f.val, by omega⟩

def mT (it ft mi : EReal) : EReal := max (ft + mi) it
def iE (it ft mi : EReal) : EReal := Ideal.exp (it - mT it ft mi)
def fE (it ft mi : EReal) : EReal := Ideal.exp (ft + mi - mT it ft mi)
def nT (it ft mi ni : EReal) : EReal := fE it ft mi * ni + iE it ft mi
def cT (it ft zt mi ci mk : EReal) : EReal := (ci * fE it ft mi + Ideal.tanh zt * iE it ft mi) * mk + (one - mk) * ci
def hT (it ft ot zt mi ci ni hi mk : EReal) : EReal :=
  Ideal.logistic ot * Ideal.div (cT it ft zt mi ci mk) (nT it ft mi ni) * mk + (one - mk) * hi

section
variable (Zi : A3 512) (Ci Mi Hi Ni : A3 1024) (msk : A3 1) (Wh : A2 1024) (Wz : A2 512) (bias : A1)

/-- The new cell state. -/
def GC : A3 1024 := fun i =>
  cT (gate Hi Zi Wh Wz bias (i 0) (i 1) (cI (i 2))) (gate Hi Zi Wh Wz bias (i 0) (i 1) (cF (i 2)))
    (gate Hi Zi Wh Wz bias (i 0) (i 1) (cZ (i 2))) (Mi i) (Ci i) (msk (ix3 (i 0) (i 1) 0))
/-- The new stabiliser. -/
def GM : A3 1024 := fun i =>
  mT (gate Hi Zi Wh Wz bias (i 0) (i 1) (cI (i 2))) (gate Hi Zi Wh Wz bias (i 0) (i 1) (cF (i 2))) (Mi i)
/-- The new hidden state. -/
def GH : A3 1024 := fun i =>
  hT (gate Hi Zi Wh Wz bias (i 0) (i 1) (cI (i 2))) (gate Hi Zi Wh Wz bias (i 0) (i 1) (cF (i 2)))
    (gate Hi Zi Wh Wz bias (i 0) (i 1) (cO (i 2))) (gate Hi Zi Wh Wz bias (i 0) (i 1) (cZ (i 2)))
    (Mi i) (Ci i) (Ni i) (Hi i) (msk (ix3 (i 0) (i 1) 0))
/-- The new normaliser. -/
def GN : A3 1024 := fun i =>
  nT (gate Hi Zi Wh Wz bias (i 0) (i 1) (cI (i 2))) (gate Hi Zi Wh Wz bias (i 0) (i 1) (cF (i 2))) (Mi i) (Ni i)
end

end Cert.LstmSpec

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.LibLayout3.lean ====
/-
  Keep-dimension layout operations of rank-3 arrays read at an index.

  A reduction that keeps its axis is spelled as a cast to a shape with a unit axis followed by a broadcast along that
  axis. Read at coordinates these are the identity on the remaining coordinates:
    * an [a, b] array cast to [a, 1, b] reads, at (p, u, w), the operand at (p, w); cast to [a, b, 1] it reads, at
      (p, n, u), the operand at (p, n);
    * an [a, 1, c] array broadcast to [a, b, c] reads, at (p, j, w), the operand at (p, 0, w); a [1, b, c] array reads
      the operand at (0, j, w); an [a, b, 1] array reads the operand at (p, j, 0).
-/
import Idealize.ShloMosaic.Lib.Pipeline.Value
import Idealize.ShloMosaic.Lib.ValueIdx

noncomputable section

namespace Cert.LibLayout3

open Idealize.ShloMosaic Idealize.ShloMosaic.ValueIdx

variable {α : Type}

/-- An `[a, b]` array cast to `[a, 1, b]` reads, at `(p, u, w)`, the operand at `(p, w)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (w : Fin b) :
    shapeCast ⟨3, ![a, 1, b]⟩ x h (ix3 p u w) = x (ix2 p w) :=
  shapeCast_apply x h _ _ (by
    have hu : u.val = 0 := by omega
    rw [Shape.rowMajor_val_three, Shape.rowMajor_val_two]
    show p.val * b + w.val = (p.val * 1 + u.val) * b + w.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, c]` array broadcast to `[a, b, c]` reads, at `(p, j, w)`, the operand at `(p, 0, w)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (j : Fin b) (w : Fin c) :
    broadcastTo ⟨3, ![a, b, c]⟩ v h (ix3 p j w) = v (ix3 p (0 : Fin 1) w) := by
  refine broadcastTo_apply v h (ix3 p j w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- A `[1, b, c]` array broadcast to `[a, b, c]` reads, at `(p, j, w)`, the operand at `(0, j, w)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (w : Fin c) :
    broadcastTo ⟨3, ![a, b, c]⟩ v h (ix3 p j w) = v (ix3 (0 : Fin 1) j w) := by
  refine broadcastTo_apply v h (ix3 p j w) (ix3 (0 : Fin 1) j w) fun ax => ?_
  match ax with
  | ⟨0, _⟩ => rfl
  | ⟨1, _⟩ =>
    show j.val = if b = 1 then 0 else j.val
    split
    · have := j.isLt; omega
    · rfl
  | ⟨2, _⟩ =>
    show w.val = if c = 1 then 0 else w.val
    split
    · have := w.isLt; omega
    · rfl

/-- An `[a, b, 1]` array broadcast to `[a, b, c]` reads, at `(p, j, w)`, the operand at `(p, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (w : Fin c) :
    broadcastTo ⟨3, ![a, b, c]⟩ v h (ix3 p j w) = v (ix3 p j (0 : Fin 1)) := by
  refine broadcastTo_apply v h (ix3 p j w) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLayout3

end
-- ==== Proof.LibMergeRows.lean ====
/-
  Merging the two leading axes of a rank-3 array into one, and splitting them again, read at an index: entry
  (i·b + j, k) of the merged [a·b, c] array is entry (i, j, k) of the [a, b, c] array, both ways.
-/
import Idealize.ShloMosaic.Lib.Pipeline.Value
import Idealize.ShloMosaic.Lib.ValueIdx

namespace Cert.LibMergeRows

open Idealize.ShloMosaic Idealize.ShloMosaic.ValueIdx

variable {α : Type}

/-- An `[a, b, c]` array cast to `[m, c]` reads, at row `r = i·b + j` and column `k`, the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` array cast to `[a, b, c]` reads, at `(i, j, k)`, the operand at row `r = i·b + j` and column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibMergeRows
-- ==== Proof.KBlock.lean ====
/-
  One block of the kernel's results, read at an index. A block holds four batch rows; its 256 x 4096 sheet of gate
  pre-activations has row 64·b' + p for batch row b' of the block and position p, and the four bands of columns
  are the four gates. Entry (b', p, f) of each result block is the scalar recurrence of the specification at the
  block's own values, so once each input block is known to be the matching piece of its array, the result block
  is the matching piece of the specified array.
-/
import proofs.«178776_j31688268710611_2_alg».proof.Proof.Gen.KernelIdeal.Skeleton
import proofs.«178776_j31688268710611_2_alg».proof.Proof.Spec
import proofs.«178776_j31688268710611_2_alg».proof.Proof.LibPlainDot
import proofs.«178776_j31688268710611_2_alg».proof.Proof.LibSlice2
import proofs.«178776_j31688268710611_2_alg».proof.Proof.LibLayout3
import proofs.«178776_j31688268710611_2_alg».proof.Proof.LibMergeRows
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.LstmSpec
open Idealize.ShloMosaic Idealize.ShloMosaic.ValueIdx

variable (x0 : FVec Ideal S4x64x512 .f32) (x1 x2 x3 x4 : FVec Ideal S4x64x1024 .f32) (x5 : FVec Ideal S4x64x1 .f32)
  (x6 : FVec Ideal S1024x4096 .bf16) (x7 : FVec Ideal S512x4096 .bf16) (x8 : FVec Ideal S1x4096 .f32)

/-- Entry `j` of the block's row of gate pre-activations for its batch row `b'` and position `p`. -/
def blkGate (b' : Fin 4) (p : Fin 64) (j : Fin 4096) : EReal :=
  (∑ k : Fin 1024, x1 (ix3 b' p k) * x6 (ix2 k j) + ∑ k : Fin 512, x0 (ix3 b' p k) * x7 (ix2 k j)) + x8 (ix2 (0 : Fin 1) j)

/-- The sheet of pre-activations at row `r = 64·b' + p`. -/
theorem pay7_at (r : Fin 256) (b' : Fin 4) (p : Fin 64) (hr : r.val = b'.val * 64 + p.val) (j : Fin 4096) :
    k0_pay7 (F := Ideal) x1 x0 x6 x7 x8 (ix2 r j) = blkGate x0 x1 x6 x7 x8 b' p j := by
  unfold k0_pay7 blkGate
  rw [addf_apply, addf_apply, shapeCast_self, shapeCast_self, shapeCast_self,
    broadcastTo_1b_ab_apply]
  have h1 : matmul dot_S256x1024_S1024x4096_S256x4096_1_0_0_1_n_n none
        (truncf .bf16 (shapeCast S256x1024 x1 shapeCasts_S4x64x1024_S256x1024) bitsLt_bf16_f32) x6 (constant S256x4096 .f32 0x00000000#32) (ix2 r j)
      = ∑ c : Fin 1024, (truncf .bf16 (shapeCast S256x1024 x1 shapeCasts_S4x64x1024_S256x1024) bitsLt_bf16_f32) (ix2 r c) * x6 (ix2 c j) :=
    Cert.LibPlainDot.matmul_plain_zero_apply 256 1024 4096 none _ x6 r j
  have h2 : matmul dot_S256x512_S512x4096_S256x4096_1_0_0_1_n_n none
        (truncf .bf16 (shapeCast S256x512 x0 shapeCasts_S4x64x512_S256x512) bitsLt_bf16_f32) x7 (constant S256x4096 .f32 0x00000000#32) (ix2 r j)
      = ∑ c : Fin 512, (truncf .bf16 (shapeCast S256x512 x0 shapeCasts_S4x64x512_S256x512) bitsLt_bf16_f32) (ix2 r c) * x7 (ix2 c j) :=
    Cert.LibPlainDot.matmul_plain_zero_apply 256 512 4096 none _ x7 r j
  rw [h1, h2]
  congr 1
  congr 1
  · refine Finset.sum_congr rfl fun k _ => ?_
    rw [truncf_apply, Cert.LibMergeRows.shapeCast_abc_mc_apply x1 _ b' p k r hr]
  · refine Finset.sum_congr rfl fun k _ => ?_
    rw [truncf_apply, Cert.LibMergeRows.shapeCast_abc_mc_apply x0 _ b' p k r hr]

/-- The four bands: entry (b', p, f) of the band that starts at column o is entry o + f of row 64·b' + p of the sheet. -/
theorem pay8_at (b' : Fin 4) (p : Fin 64) (f : Fin 1024) :
    k0_pay8 (F := Ideal) x1 x0 x6 x7 x8 (ix3 b' p f) = blkGate x0 x1 x6 x7 x8 b' p (cI f) := by
  have hb := b'.isLt; have hp := p.isLt; have hf := f.isLt
  unfold k0_pay8
  refine (Cert.LibMergeRows.shapeCast_mc_abc_apply _ _ b' p f ⟨b'.val * 64 + p.val, by omega⟩ rfl).trans ?_
  refine (Cert.LibSlice2.slice2_apply 0 0 _ _ ⟨b'.val * 64 + p.val, by omega⟩ f
    (show 0 + (b'.val * 64 + p.val) < 256 by omega) (show 0 + f.val < 4096 by omega)).trans ?_
  refine (pay7_at x0 x1 x6 x7 x8 _ b' p (show 0 + (b'.val * 64 + p.val) = b'.val * 64 + p.val by omega) _).trans ?_
  exact congrArg (blkGate x0 x1 x6 x7 x8 b' p) (Fin.ext (by show 0 + f.val = _; exact Nat.zero_add _))
theorem pay9_at (b' : Fin 4) (p : Fin 64) (f : Fin 1024) :
    k0_pay9 (F := Ideal) x1 x0 x6 x7 x8 (ix3 b' p f) = blkGate x0 x1 x6 x7 x8 b' p (cF f) := by
  have hb := b'.isLt; have hp := p.isLt; have hf := f.isLt
  unfold k0_pay9
  refine (Cert.LibMergeRows.shapeCast_mc_abc_apply _ _ b' p f ⟨b'.val * 64 + p.val, by omega⟩ rfl).trans ?_
  refine (Cert.LibSlice2.slice2_apply 0 1024 _ _ ⟨b'.val * 64 + p.val, by omega⟩ f
    (show 0 + (b'.val * 64 + p.val) < 256 by omega) (show 1024 + f.val < 4096 by omega)).trans ?_
  refine (pay7_at x0 x1 x6 x7 x8 _ b' p (show 0 + (b'.val * 64 + p.val) = b'.val * 64 + p.val by omega) _).trans ?_
  exact congrArg (blkGate x0 x1 x6 x7 x8 b' p) (Fin.ext (by show 1024 + f.val = _; rfl))
theorem pay10_at (b' : Fin 4) (p : Fin 64) (f : Fin 1024) :
    k0_pay10 (F := Ideal) x1 x0 x6 x7 x8 (ix3 b' p f) = blkGate x0 x1 x6 x7 x8 b' p (cO f) := by
  have hb := b'.isLt; have hp := p.isLt; have hf := f.isLt
  unfold k0_pay10
  refine (Cert.LibMergeRows.shapeCast_mc_abc_apply _ _ b' p f ⟨b'.val * 64 + p.val, by omega⟩ rfl).trans ?_
  refine (Cert.LibSlice2.slice2_apply 0 2048 _ _ ⟨b'.val * 64 + p.val, by omega⟩ f
    (show 0 + (b'.val * 64 + p.val) < 256 by omega) (show 2048 + f.val < 4096 by omega)).trans ?_
  refine (pay7_at x0 x1 x6 x7 x8 _ b' p (show 0 + (b'.val * 64 + p.val) = b'.val * 64 + p.val by omega) _).trans ?_
  exact congrArg (blkGate x0 x1 x6 x7 x8 b' p) (Fin.ext (by show 2048 + f.val = _; rfl))
theorem pay11_at (b' : Fin 4) (p : Fin 64) (f : Fin 1024) :
    k0_pay11 (F := Ideal) x1 x0 x6 x7 x8 (ix3 b' p f) = blkGate x0 x1 x6 x7 x8 b' p (cZ f) := by
  have hb := b'.isLt; have hp := p.isLt; have hf := f.isLt
  unfold k0_pay11
  refine (Cert.LibMergeRows.shapeCast_mc_abc_apply _ _ b' p f ⟨b'.val * 64 + p.val, by omega⟩ rfl).trans ?_
  refine (Cert.LibSlice2.slice2_apply 0 3072 _ _ ⟨b'.val * 64 + p.val, by omega⟩ f
    (show 0 + (b'.val * 64 + p.val) < 256 by omega) (show 3072 + f.val < 4096 by omega)).trans ?_
  refine (pay7_at x0 x1 x6 x7 x8 _ b' p (show 0 + (b'.val * 64 + p.val) = b'.val * 64 + p.val by omega) _).trans ?_
  exact congrArg (blkGate x0 x1 x6 x7 x8 b' p) (Fin.ext (by show 3072 + f.val = _; rfl))

section pointwise
variable (v18 v20 v22 v24 v25 v26 v27 v28 : FVec Ideal S4x64x1024 .f32) (v29 : FVec Ideal S4x64x1 .f32)

theorem pay1_apply (i : S4x64x1024.Idx) : k0_pay1 v18 v20 v25 i = mT (v18 i) (v20 i) (v25 i) := rfl
theorem pay2_apply (i : S4x64x1024.Idx) : k0_pay2 v18 v20 v25 i = iE (v18 i) (v20 i) (v25 i) := rfl
theorem pay3_apply (i : S4x64x1024.Idx) : k0_pay3 v18 v20 v25 i = fE (v18 i) (v20 i) (v25 i) := rfl
theorem pay4_apply (i : S4x64x1024.Idx) : k0_pay4 v18 v20 v25 v27 i = nT (v18 i) (v20 i) (v25 i) (v27 i) := rfl

/-- The mask column spread along the features reads, at (b', p, f), the mask at (b', p). -/
theorem mask_at (v : FVec Ideal S4x64x1 .f32) (b' : Fin 4) (p : Fin 64) (f : Fin 1024) :
    broadcastTo S4x64x1024 v broadcasts_S4x64x1_S4x64x1024 (ix3 b' p f) = v (ix3 b' p (0 : Fin 1)) :=
  Cert.LibLayout3.broadcastTo_ab1_abc_apply v _ b' p f

theorem pay5_at (b' : Fin 4) (p : Fin 64) (f : Fin 1024) :
    k0_pay5 v18 v20 v24 v25 v26 v29 (ix3 b' p f)
      = cT (v18 (ix3 b' p f)) (v20 (ix3 b' p f)) (v24 (ix3 b' p f)) (v25 (ix3 b' p f)) (v26 (ix3 b' p f)) (v29 (ix3 b' p (0 : Fin 1))) := by
  show (v26 (ix3 b' p f) * fE (v18 (ix3 b' p f)) (v20 (ix3 b' p f)) (v25 (ix3 b' p f))
        + Ideal.tanh (v24 (ix3 b' p f)) * iE (v18 (ix3 b' p f)) (v20 (ix3 b' p f)) (v25 (ix3 b' p f)))
        * broadcastTo S4x64x1024 v29 broadcasts_S4x64x1_S4x64x1024 (ix3 b' p f)
      + broadcastTo S4x64x1024 (subf (broadcast S4x64x1 (Scalar.ofBits (F := Ideal) .f32 0x3F800000#32)) v29) broadcasts_S4x64x1_S4x64x1024 (ix3 b' p f)
        * v26 (ix3 b' p f) = _
  rw [mask_at, mask_at]
  rfl

theorem pay6_at (b' : Fin 4) (p : Fin 64) (f : Fin 1024) :
    k0_pay6 v18 v20 v22 v24 v25 v26 v27 v28 v29 (ix3 b' p f)
      = hT (v18 (ix3 b' p f)) (v20 (ix3 b' p f)) (v22 (ix3 b' p f)) (v24 (ix3 b' p f)) (v25 (ix3 b' p f)) (v26 (ix3 b' p f))
          (v27 (ix3 b' p f)) (v28 (ix3 b' p f)) (v29 (ix3 b' p (0 : Fin 1))) := by
  show Ideal.logistic (v22 (ix3 b' p f))
        * Ideal.div (k0_pay5 v18 v20 v24 v25 v26 v29 (ix3 b' p f)) (nT (v18 (ix3 b' p f)) (v20 (ix3 b' p f)) (v25 (ix3 b' p f)) (v27 (ix3 b' p f)))
        * broadcastTo S4x64x1024 v29 broadcasts_S4x64x1_S4x64x1024 (ix3 b' p f)
      + broadcastTo S4x64x1024 (subf (broadcast S4x64x1 (Scalar.ofBits (F := Ideal) .f32 0x3F800000#32)) v29) broadcasts_S4x64x1_S4x64x1024 (ix3 b' p f)
        * v28 (ix3 b' p f) = _
  rw [mask_at, mask_at, pay5_at]
  rfl
end pointwise

section arrays
variable (Zi : A3 512) (Ci Mi Hi Ni : A3 1024) (msk : A3 1) (Wh : A2 1024) (Wz : A2 512) (bias : A1)
  (B : Fin 256) (b' : Fin 4) (p : Fin 64) (f : Fin 1024)
  (e0 : ∀ k, x0 (ix3 b' p k) = Zi (ix3 B p k)) (e1 : ∀ k, x1 (ix3 b' p k) = Hi (ix3 B p k))
  (e6 : ∀ k j, x6 (ix2 k j) = Wh (ix2 k j)) (e7 : ∀ k j, x7 (ix2 k j) = Wz (ix2 k j))
  (e8 : ∀ j, x8 (ix2 (0 : Fin 1) j) = bias (ix1 j))

include e0 e1 e6 e7 e8 in
/-- With the input blocks the matching pieces of the arrays, the block's row of pre-activations is the arrays' row. -/
theorem blkGate_eq (j : Fin 4096) : blkGate x0 x1 x6 x7 x8 b' p j = gate Hi Zi Wh Wz bias B p j := by
  unfold blkGate gate
  simp only [e0, e1, e6, e7, e8]

variable (e2 : x2 (ix3 b' p f) = Ci (ix3 B p f)) (e3 : x3 (ix3 b' p f) = Mi (ix3 B p f))
  (e4 : x4 (ix3 b' p f) = Ni (ix3 B p f)) (e5 : x5 (ix3 b' p (0 : Fin 1)) = msk (ix3 B p (0 : Fin 1)))

include e0 e1 e6 e7 e8 e3 in
theorem outM_at :
    k0_pay1 (F := Ideal) (k0_pay8 x1 x0 x6 x7 x8) (k0_pay9 x1 x0 x6 x7 x8) x3 (ix3 b' p f) = GM Zi Mi Hi Wh Wz bias (ix3 B p f) := by
  rw [pay1_apply, pay8_at, pay9_at, e3,
    blkGate_eq x0 x1 x6 x7 x8 Zi Hi Wh Wz bias B b' p e0 e1 e6 e7 e8,
    blkGate_eq x0 x1 x6 x7 x8 Zi Hi Wh Wz bias B b' p e0 e1 e6 e7 e8]
  rfl

include e0 e1 e6 e7 e8 e3 e4 in
theorem outN_at :
    k0_pay4 (F := Ideal) (k0_pay8 x1 x0 x6 x7 x8) (k0_pay9 x1 x0 x6 x7 x8) x3 x4 (ix3 b' p f) = GN Zi Mi Hi Ni Wh Wz bias (ix3 B p f) := by
  rw [pay4_apply, pay8_at, pay9_at, e3, e4,
    blkGate_eq x0 x1 x6 x7 x8 Zi Hi Wh Wz bias B b' p e0 e1 e6 e7 e8,
    blkGate_eq x0 x1 x6 x7 x8 Zi Hi Wh Wz bias B b' p e0 e1 e6 e7 e8]
  rfl

include e0 e1 e6 e7 e8 e2 e3 e5 in
theorem outC_at :
    k0_pay5 (F := Ideal) (k0_pay8 x1 x0 x6 x7 x8) (k0_pay9 x1 x0 x6 x7 x8) (k0_pay11 x1 x0 x6 x7 x8) x3 x2 x5 (ix3 b' p f)
      = GC Zi Ci Mi Hi msk Wh Wz bias (ix3 B p f) := by
  rw [pay5_at, pay8_at, pay9_at, pay11_at, e2, e3, e5,
    blkGate_eq x0 x1 x6 x7 x8 Zi Hi Wh Wz bias B b' p e0 e1 e6 e7 e8,
    blkGate_eq x0 x1 x6 x7 x8 Zi Hi Wh Wz bias B b' p e0 e1 e6 e7 e8,
    blkGate_eq x0 x1 x6 x7 x8 Zi Hi Wh Wz bias B b' p e0 e1 e6 e7 e8]
  rfl

include e0 e1 e6 e7 e8 e2 e3 e4 e5 in
theorem outH_at :
    k0_pay6 (F := Ideal) (k0_pay8 x1 x0 x6 x7 x8) (k0_pay9 x1 x0 x6 x7 x8) (k0_pay10 x1 x0 x6 x7 x8) (k0_pay11 x1 x0 x6 x7 x8) x3 x2 x4 x1 x5 (ix3 b' p f)
      = GH Zi Ci Mi Hi Ni msk Wh Wz bias (ix3 B p f) := by
  rw [pay6_at, pay8_at, pay9_at, pay10_at, pay11_at, e2, e3, e4, e5, e1 f,
    blkGate_eq x0 x1 x6 x7 x8 Zi Hi Wh Wz bias B b' p e0 e1 e6 e7 e8,
    blkGate_eq x0 x1 x6 x7 x8 Zi Hi Wh Wz bias B b' p e0 e1 e6 e7 e8,
    blkGate_eq x0 x1 x6 x7 x8 Zi Hi Wh Wz bias B b' p e0 e1 e6 e7 e8,
    blkGate_eq x0 x1 x6 x7 x8 Zi Hi Wh Wz bias B b' p e0 e1 e6 e7 e8]
  rfl
end arrays

end Cert.KernelIdeal.BlockValue

end
-- ==== Proof.KHost.lean ====
/-
  What the host operations before the launch leave in the three resident operands: the joined weight matrices
  (their rounding to the narrower format changes nothing over the extended reals) and the joined bias, which the
  one-row layout holds entry for entry.
-/
import proofs.«178776_j31688268710611_2_alg».proof.Proof.KI.Entry
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx Idealize.ShloMosaic.StableHlo

/-- The four square matrices joined along their columns. -/
abbrev joinH (c : Dev nD) : FVec Ideal S1024x4096 .f32 :=
  concatenate S1024x4096 1 [⟨S1024x1024, m ((c : Thread nD τ).loc main_arg6)⟩, ⟨S1024x1024, m ((c : Thread nD τ).loc main_arg8)⟩, ⟨S1024x1024, m ((c : Thread nD τ).loc main_arg10)⟩, ⟨S1024x1024, m ((c : Thread nD τ).loc main_arg12)⟩]
    concatenates_S1024x1024_S1024x1024_S1024x1024_S1024x1024_S1024x4096_d1
/-- The four 512-row matrices joined along their columns. -/
abbrev joinZ (c : Dev nD) : FVec Ideal S512x4096 .f32 :=
  concatenate S512x4096 1 [⟨S512x1024, m ((c : Thread nD τ).loc main_arg14)⟩, ⟨S512x1024, m ((c : Thread nD τ).loc main_arg16)⟩, ⟨S512x1024, m ((c : Thread nD τ).loc main_arg18)⟩, ⟨S512x1024, m ((c : Thread nD τ).loc main_arg20)⟩]
    concatenates_S512x1024_S512x1024_S512x1024_S512x1024_S512x4096_d1
/-- The four summed biases joined end to end. -/
abbrev joinB (c : Dev nD) : FVec Ideal S4096 .f32 :=
  concatenate S4096 0 [⟨S1024, addf (m ((c : Thread nD τ).loc main_arg7)) (m ((c : Thread nD τ).loc main_arg15))⟩, ⟨S1024, addf (m ((c : Thread nD τ).loc main_arg9)) (m ((c : Thread nD τ).loc main_arg17))⟩,
    ⟨S1024, addf (m ((c : Thread nD τ).loc main_arg11)) (m ((c : Thread nD τ).loc main_arg19))⟩, ⟨S1024, addf (m ((c : Thread nD τ).loc main_arg13)) (m ((c : Thread nD τ).loc main_arg21))⟩] concatenates_S1024_S1024_S1024_S1024_S4096_d0

theorem V_v1 (c : Dev nD) : (V m c main_v1 : S1024x4096.Idx → EReal) = joinH m c := by
  have e : (V m c main_v1 : S1024x4096.Idx → EReal) = truncf .bf16 (joinH m c) bitsLt_bf16_f32 := by
    dsimp only [V, hostOps0]; after_results; rfl
  rw [e]; rfl

theorem V_v3 (c : Dev nD) : (V m c main_v3 : S512x4096.Idx → EReal) = joinZ m c := by
  have e : (V m c main_v3 : S512x4096.Idx → EReal) = truncf .bf16 (joinZ m c) bitsLt_bf16_f32 := by
    dsimp only [V, hostOps0]; after_results; rfl
  rw [e]; rfl

theorem V_v9 (c : Dev nD) (j : Fin 4096) : (V m c main_v9 : S1x4096.Idx → EReal) (ix2 (0 : Fin 1) j) = joinB m c (ix1 j) := by
  have e : (V m c main_v9 : S1x4096.Idx → EReal) = shapeCast S1x4096 (joinB m c) shapeCasts_S4096_S1x4096 := by
    dsimp only [V, hostOps0]; after_results; rfl
  rw [e]
  exact shapeCast_a_1a_apply (joinB m c) shapeCasts_S4096_S1x4096 (0 : Fin 1) j

end Cert.KernelIdeal.Hand

end
-- ==== Proof.KVal.lean ====
/-
  From blocks to arrays. Grid point t handles batch rows 4t … 4t + 3: every streamed window's block at t is that
  slab of its array, the three resident windows' blocks are their whole arrays, and the four result windows write
  the same slab back. So what point t writes into a result array is that slab of the specified array, and since
  the 64 slabs fill the 256 batch rows, each result array ends as the specified array.
-/
import proofs.«178776_j31688268710611_2_alg».proof.Proof.KI.Run
import proofs.«178776_j31688268710611_2_alg».proof.Proof.KBlock
import proofs.«178776_j31688268710611_2_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.LstmSpec Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The arrays as the launch finds them, under the specification's names. -/
abbrev Zi (c : Dev nD) : A3 512 := V m c main_arg0
abbrev Ci (c : Dev nD) : A3 1024 := V m c main_arg1
abbrev Mi (c : Dev nD) : A3 1024 := V m c main_arg2
abbrev Hi (c : Dev nD) : A3 1024 := V m c main_arg3
abbrev Ni (c : Dev nD) : A3 1024 := V m c main_arg4
abbrev msk (c : Dev nD) : A3 1 := V m c main_arg5
abbrev Wh (c : Dev nD) : A2 1024 := V m c main_v1
abbrev Wz (c : Dev nD) : A2 512 := V m c main_v3
/-- The bias, read off its one-row layout. -/
abbrev bias (c : Dev nD) : A1 := fun i => V m c main_v9 (ix2 (0 : Fin 1) (i 0))

/-- The batch row that row `b'` of point `t`'s slab is. -/
abbrev rowOf (t : Fin cfg0.N) (b' : Fin 4) : Fin 256 :=
  ⟨t.val * 4 + b'.val, by have h : t.val < grid0.N := t.isLt; have hN : grid0.N = 64 := N_0; have := b'.isLt; omega⟩

/-! The block indices, decided over the grid. -/
theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx_12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)

/-! Each input block, read at an index. -/
theorem blk_0 (c : Dev nD) (t : Fin cfg0.N) (b' : Fin 4) (p : Fin 64) (k : Fin 512) :
    iblk m c 0 t (ix3 b' p k) = V m c main_arg0 (ix3 (rowOf t b') p k) := by
  show V m c main_arg0 (((cfg0.win 0).blk t).view.emb (ix3 b' p k)) = _
  refine congrArg (V m c main_arg0) (funext fun a => Fin.ext ?_)
  obtain ⟨h0, h1, h2⟩ := idx_0 t
  match a with
  | ⟨0, _⟩ => show win0_0.index t (0 : Fin 3) * 4 + 1 * b'.val = t.val * 4 + b'.val; rw [h0]; omega
  | ⟨1, _⟩ => show win0_0.index t (1 : Fin 3) * 64 + 1 * p.val = p.val; rw [h1]; omega
  | ⟨2, _⟩ => show win0_0.index t (2 : Fin 3) * 512 + 1 * k.val = k.val; rw [h2]; omega
theorem blk_1 (c : Dev nD) (t : Fin cfg0.N) (b' : Fin 4) (p : Fin 64) (k : Fin 1024) :
    iblk m c 1 t (ix3 b' p k) = V m c main_arg3 (ix3 (rowOf t b') p k) := by
  show V m c main_arg3 (((cfg0.win 1).blk t).view.emb (ix3 b' p k)) = _
  refine congrArg (V m c main_arg3) (funext fun a => Fin.ext ?_)
  obtain ⟨h0, h1, h2⟩ := idx_1 t
  match a with
  | ⟨0, _⟩ => show win0_1.index t (0 : Fin 3) * 4 + 1 * b'.val = t.val * 4 + b'.val; rw [h0]; omega
  | ⟨1, _⟩ => show win0_1.index t (1 : Fin 3) * 64 + 1 * p.val = p.val; rw [h1]; omega
  | ⟨2, _⟩ => show win0_1.index t (2 : Fin 3) * 1024 + 1 * k.val = k.val; rw [h2]; omega
theorem blk_2 (c : Dev nD) (t : Fin cfg0.N) (b' : Fin 4) (p : Fin 64) (k : Fin 1024) :
    iblk m c 2 t (ix3 b' p k) = V m c main_arg1 (ix3 (rowOf t b') p k) := by
  show V m c main_arg1 (((cfg0.win 2).blk t).view.emb (ix3 b' p k)) = _
  refine congrArg (V m c main_arg1) (funext fun a => Fin.ext ?_)
  obtain ⟨h0, h1, h2⟩ := idx_2 t
  match a with
  | ⟨0, _⟩ => show win0_2.index t (0 : Fin 3) * 4 + 1 * b'.val = t.val * 4 + b'.val; rw [h0]; omega
  | ⟨1, _⟩ => show win0_2.index t (1 : Fin 3) * 64 + 1 * p.val = p.val; rw [h1]; omega
  | ⟨2, _⟩ => show win0_2.index t (2 : Fin 3) * 1024 + 1 * k.val = k.val; rw [h2]; omega
theorem blk_3 (c : Dev nD) (t : Fin cfg0.N) (b' : Fin 4) (p : Fin 64) (k : Fin 1024) :
    iblk m c 3 t (ix3 b' p k) = V m c main_arg2 (ix3 (rowOf t b') p k) := by
  show V m c main_arg2 (((cfg0.win 3).blk t).view.emb (ix3 b' p k)) = _
  refine congrArg (V m c main_arg2) (funext fun a => Fin.ext ?_)
  obtain ⟨h0, h1, h2⟩ := idx_3 t
  match a with
  | ⟨0, _⟩ => show win0_3.index t (0 : Fin 3) * 4 + 1 * b'.val = t.val * 4 + b'.val; rw [h0]; omega
  | ⟨1, _⟩ => show win0_3.index t (1 : Fin 3) * 64 + 1 * p.val = p.val; rw [h1]; omega
  | ⟨2, _⟩ => show win0_3.index t (2 : Fin 3) * 1024 + 1 * k.val = k.val; rw [h2]; omega
theorem blk_4 (c : Dev nD) (t : Fin cfg0.N) (b' : Fin 4) (p : Fin 64) (k : Fin 1024) :
    iblk m c 4 t (ix3 b' p k) = V m c main_arg4 (ix3 (rowOf t b') p k) := by
  show V m c main_arg4 (((cfg0.win 4).blk t).view.emb (ix3 b' p k)) = _
  refine congrArg (V m c main_arg4) (funext fun a => Fin.ext ?_)
  obtain ⟨h0, h1, h2⟩ := idx_4 t
  match a with
  | ⟨0, _⟩ => show win0_4.index t (0 : Fin 3) * 4 + 1 * b'.val = t.val * 4 + b'.val; rw [h0]; omega
  | ⟨1, _⟩ => show win0_4.index t (1 : Fin 3) * 64 + 1 * p.val = p.val; rw [h1]; omega
  | ⟨2, _⟩ => show win0_4.index t (2 : Fin 3) * 1024 + 1 * k.val = k.val; rw [h2]; omega
theorem blk_5 (c : Dev nD) (t : Fin cfg0.N) (b' : Fin 4) (p : Fin 64) :
    iblk m c 5 t (ix3 b' p (0 : Fin 1)) = V m c main_arg5 (ix3 (rowOf t b') p (0 : Fin 1)) := by
  show V m c main_arg5 (((cfg0.win 5).blk t).view.emb (ix3 b' p (0 : Fin 1))) = _
  refine congrArg (V m c main_arg5) (funext fun a => Fin.ext ?_)
  obtain ⟨h0, h1, h2⟩ := idx_5 t
  match a with
  | ⟨0, _⟩ => show win0_5.index t (0 : Fin 3) * 4 + 1 * b'.val = t.val * 4 + b'.val; rw [h0]; omega
  | ⟨1, _⟩ => show win0_5.index t (1 : Fin 3) * 64 + 1 * p.val = p.val; rw [h1]; omega
  | ⟨2, _⟩ => show win0_5.index t (2 : Fin 3) * 1 + 1 * 0 = 0; rw [h2]
theorem blk_6 (c : Dev nD) (t : Fin cfg0.N) (k : Fin 1024) (j : Fin 4096) :
    iblk m c 6 t (ix2 k j) = V m c main_v1 (ix2 k j) := by
  show V m c main_v1 (((cfg0.win 6).blk t).view.emb (ix2 k j)) = _
  refine congrArg (V m c main_v1) (funext fun a => Fin.ext ?_)
  obtain ⟨h0, h1⟩ := idx_6 t
  match a with
  | ⟨0, _⟩ => show win0_6.index t (0 : Fin 2) * 1024 + 1 * k.val = k.val; rw [h0]; omega
  | ⟨1, _⟩ => show win0_6.index t (1 : Fin 2) * 4096 + 1 * j.val = j.val; rw [h1]; omega
theorem blk_7 (c : Dev nD) (t : Fin cfg0.N) (k : Fin 512) (j : Fin 4096) :
    iblk m c 7 t (ix2 k j) = V m c main_v3 (ix2 k j) := by
  show V m c main_v3 (((cfg0.win 7).blk t).view.emb (ix2 k j)) = _
  refine congrArg (V m c main_v3) (funext fun a => Fin.ext ?_)
  obtain ⟨h0, h1⟩ := idx_7 t
  match a with
  | ⟨0, _⟩ => show win0_7.index t (0 : Fin 2) * 512 + 1 * k.val = k.val; rw [h0]; omega
  | ⟨1, _⟩ => show win0_7.index t (1 : Fin 2) * 4096 + 1 * j.val = j.val; rw [h1]; omega
theorem blk_8 (c : Dev nD) (t : Fin cfg0.N) (j : Fin 4096) :
    iblk m c 8 t (ix2 (0 : Fin 1) j) = bias m c (ix1 j) := by
  show V m c main_v9 (((cfg0.win 8).blk t).view.emb (ix2 (0 : Fin 1) j)) = V m c main_v9 (ix2 (0 : Fin 1) j)
  refine congrArg (V m c main_v9) (funext fun a => Fin.ext ?_)
  obtain ⟨h0, h1⟩ := idx_8 t
  match a with
  | ⟨0, _⟩ => show win0_8.index t (0 : Fin 2) * 1 + 1 * 0 = 0; rw [h0]
  | ⟨1, _⟩ => show win0_8.index t (1 : Fin 2) * 4096 + 1 * j.val = j.val; rw [h1]; omega

/-! Where a result block sits in its array. -/
theorem emb_out9 (t : Fin cfg0.N) (b' : Fin 4) (p : Fin 64) (f : Fin 1024) :
    ((cfg0.win 9).blk t).view.emb (ix3 b' p f) = ix3 (rowOf t b') p f := by
  refine funext fun a => Fin.ext ?_
  obtain ⟨h0, h1, h2⟩ := idx_9 t
  match a with
  | ⟨0, _⟩ => show win0_9.index t (0 : Fin 3) * 4 + 1 * b'.val = t.val * 4 + b'.val; rw [h0]; omega
  | ⟨1, _⟩ => show win0_9.index t (1 : Fin 3) * 64 + 1 * p.val = p.val; rw [h1]; omega
  | ⟨2, _⟩ => show win0_9.index t (2 : Fin 3) * 1024 + 1 * f.val = f.val; rw [h2]; omega
theorem emb_out10 (t : Fin cfg0.N) (b' : Fin 4) (p : Fin 64) (f : Fin 1024) :
    ((cfg0.win 10).blk t).view.emb (ix3 b' p f) = ix3 (rowOf t b') p f := by
  refine funext fun a => Fin.ext ?_
  obtain ⟨h0, h1, h2⟩ := idx_10 t
  match a with
  | ⟨0, _⟩ => show win0_10.index t (0 : Fin 3) * 4 + 1 * b'.val = t.val * 4 + b'.val; rw [h0]; omega
  | ⟨1, _⟩ => show win0_10.index t (1 : Fin 3) * 64 + 1 * p.val = p.val; rw [h1]; omega
  | ⟨2, _⟩ => show win0_10.index t (2 : Fin 3) * 1024 + 1 * f.val = f.val; rw [h2]; omega
theorem emb_out11 (t : Fin cfg0.N) (b' : Fin 4) (p : Fin 64) (f : Fin 1024) :
    ((cfg0.win 11).blk t).view.emb (ix3 b' p f) = ix3 (rowOf t b') p f := by
  refine funext fun a => Fin.ext ?_
  obtain ⟨h0, h1, h2⟩ := idx_11 t
  match a with
  | ⟨0, _⟩ => show win0_11.index t (0 : Fin 3) * 4 + 1 * b'.val = t.val * 4 + b'.val; rw [h0]; omega
  | ⟨1, _⟩ => show win0_11.index t (1 : Fin 3) * 64 + 1 * p.val = p.val; rw [h1]; omega
  | ⟨2, _⟩ => show win0_11.index t (2 : Fin 3) * 1024 + 1 * f.val = f.val; rw [h2]; omega
theorem emb_out12 (t : Fin cfg0.N) (b' : Fin 4) (p : Fin 64) (f : Fin 1024) :
    ((cfg0.win 12).blk t).view.emb (ix3 b' p f) = ix3 (rowOf t b') p f := by
  refine funext fun a => Fin.ext ?_
  obtain ⟨h0, h1, h2⟩ := idx_12 t
  match a with
  | ⟨0, _⟩ => show win0_12.index t (0 : Fin 3) * 4 + 1 * b'.val = t.val * 4 + b'.val; rw [h0]; omega
  | ⟨1, _⟩ => show win0_12.index t (1 : Fin 3) * 64 + 1 * p.val = p.val; rw [h1]; omega
  | ⟨2, _⟩ => show win0_12.index t (2 : Fin 3) * 1024 + 1 * f.val = f.val; rw [h2]; omega

/-- What point `t` writes back into the C array is block `t` of the specified array. -/
theorem flushed_9 (c : Dev nD) (t : Fin cfg0.N) :
    (dats m 0 c).flushed 9 t = ((cfg0.win 9).blk t).view.read (Elt Ideal) (GC (Zi m c) (Ci m c) (Mi m c) (Hi m c) (msk m c) (Wh m c) (Wz m c) (bias m c)) := by
  show (cfg0.win 9).cut (grid0.coords t) ((dats m 0 c).after 9 t) = _
  rw [after_9]
  unfold outC
  rw [View.canon_unit_zero hz3]
  simp only [View.ld_unit_zero (S := S4x64x1024) hz3, View.ld_unit_zero (S := S4x64x512) hz3, View.ld_unit_zero (S := S4x64x1) hz3,
    View.ld_unit_zero (S := S1024x4096) hz2, View.ld_unit_zero (S := S512x4096) hz2, View.ld_unit_zero (S := S1x4096) hz2]
  funext j
  obtain ⟨b', p, f, rfl⟩ : ∃ (b' : Fin 4) (p : Fin 64) (f : Fin 1024), j = ix3 b' p f := ⟨j 0, j 1, j 2, eq_ix3 j⟩
  refine (BlockValue.outC_at (x0 := iblk m c 0 t) (x1 := iblk m c 1 t) (x2 := iblk m c 2 t) (x3 := iblk m c 3 t) (x5 := iblk m c 5 t)
    (x6 := iblk m c 6 t) (x7 := iblk m c 7 t) (x8 := iblk m c 8 t)
    (Zi := Zi m c) (Hi := Hi m c) (Wh := Wh m c) (Wz := Wz m c) (bias := bias m c) (B := rowOf t b') (b' := b') (p := p) (f := f)
    (e0 := blk_0 m c t b' p) (e1 := blk_1 m c t b' p) (e6 := blk_6 m c t) (e7 := blk_7 m c t) (e8 := blk_8 m c t)
    (e2 := blk_2 m c t b' p f) (e3 := blk_3 m c t b' p f) (e5 := blk_5 m c t b' p)).trans ?_
  exact congrArg (GC (Zi m c) (Ci m c) (Mi m c) (Hi m c) (msk m c) (Wh m c) (Wz m c) (bias m c)) (emb_out9 t b' p f).symm

/-- What point `t` writes back into the M array is block `t` of the specified array. -/
theorem flushed_10 (c : Dev nD) (t : Fin cfg0.N) :
    (dats m 0 c).flushed 10 t = ((cfg0.win 10).blk t).view.read (Elt Ideal) (GM (Zi m c) (Mi m c) (Hi m c) (Wh m c) (Wz m c) (bias m c)) := by
  show (cfg0.win 10).cut (grid0.coords t) ((dats m 0 c).after 10 t) = _
  rw [after_10]
  unfold outM
  rw [View.canon_unit_zero hz3]
  simp only [View.ld_unit_zero (S := S4x64x1024) hz3, View.ld_unit_zero (S := S4x64x512) hz3, View.ld_unit_zero (S := S4x64x1) hz3,
    View.ld_unit_zero (S := S1024x4096) hz2, View.ld_unit_zero (S := S512x4096) hz2, View.ld_unit_zero (S := S1x4096) hz2]
  funext j
  obtain ⟨b', p, f, rfl⟩ : ∃ (b' : Fin 4) (p : Fin 64) (f : Fin 1024), j = ix3 b' p f := ⟨j 0, j 1, j 2, eq_ix3 j⟩
  refine (BlockValue.outM_at (x0 := iblk m c 0 t) (x1 := iblk m c 1 t) (x3 := iblk m c 3 t)
    (x6 := iblk m c 6 t) (x7 := iblk m c 7 t) (x8 := iblk m c 8 t)
    (Zi := Zi m c) (Hi := Hi m c) (Wh := Wh m c) (Wz := Wz m c) (bias := bias m c) (B := rowOf t b') (b' := b') (p := p) (f := f)
    (e0 := blk_0 m c t b' p) (e1 := blk_1 m c t b' p) (e6 := blk_6 m c t) (e7 := blk_7 m c t) (e8 := blk_8 m c t)
    (e3 := blk_3 m c t b' p f)).trans ?_
  exact congrArg (GM (Zi m c) (Mi m c) (Hi m c) (Wh m c) (Wz m c) (bias m c)) (emb_out10 t b' p f).symm

/-- What point `t` writes back into the H array is block `t` of the specified array. -/
theorem flushed_11 (c : Dev nD) (t : Fin cfg0.N) :
    (dats m 0 c).flushed 11 t = ((cfg0.win 11).blk t).view.read (Elt Ideal) (GH (Zi m c) (Ci m c) (Mi m c) (Hi m c) (Ni m c) (msk m c) (Wh m c) (Wz m c) (bias m c)) := by
  show (cfg0.win 11).cut (grid0.coords t) ((dats m 0 c).after 11 t) = _
  rw [after_11]
  unfold outH
  rw [View.canon_unit_zero hz3]
  simp only [View.ld_unit_zero (S := S4x64x1024) hz3, View.ld_unit_zero (S := S4x64x512) hz3, View.ld_unit_zero (S := S4x64x1) hz3,
    View.ld_unit_zero (S := S1024x4096) hz2, View.ld_unit_zero (S := S512x4096) hz2, View.ld_unit_zero (S := S1x4096) hz2]
  funext j
  obtain ⟨b', p, f, rfl⟩ : ∃ (b' : Fin 4) (p : Fin 64) (f : Fin 1024), j = ix3 b' p f := ⟨j 0, j 1, j 2, eq_ix3 j⟩
  refine (BlockValue.outH_at (x0 := iblk m c 0 t) (x1 := iblk m c 1 t) (x2 := iblk m c 2 t) (x3 := iblk m c 3 t) (x4 := iblk m c 4 t) (x5 := iblk m c 5 t)
    (x6 := iblk m c 6 t) (x7 := iblk m c 7 t) (x8 := iblk m c 8 t)
    (Zi := Zi m c) (Hi := Hi m c) (Wh := Wh m c) (Wz := Wz m c) (bias := bias m c) (B := rowOf t b') (b' := b') (p := p) (f := f)
    (e0 := blk_0 m c t b' p) (e1 := blk_1 m c t b' p) (e6 := blk_6 m c t) (e7 := blk_7 m c t) (e8 := blk_8 m c t)
    (e2 := blk_2 m c t b' p f) (e3 := blk_3 m c t b' p f) (e4 := blk_4 m c t b' p f) (e5 := blk_5 m c t b' p)).trans ?_
  exact congrArg (GH (Zi m c) (Ci m c) (Mi m c) (Hi m c) (Ni m c) (msk m c) (Wh m c) (Wz m c) (bias m c)) (emb_out11 t b' p f).symm

/-- What point `t` writes back into the N array is block `t` of the specified array. -/
theorem flushed_12 (c : Dev nD) (t : Fin cfg0.N) :
    (dats m 0 c).flushed 12 t = ((cfg0.win 12).blk t).view.read (Elt Ideal) (GN (Zi m c) (Mi m c) (Hi m c) (Ni m c) (Wh m c) (Wz m c) (bias m c)) := by
  show (cfg0.win 12).cut (grid0.coords t) ((dats m 0 c).after 12 t) = _
  rw [after_12]
  unfold outN
  rw [View.canon_unit_zero hz3]
  simp only [View.ld_unit_zero (S := S4x64x1024) hz3, View.ld_unit_zero (S := S4x64x512) hz3, View.ld_unit_zero (S := S4x64x1) hz3,
    View.ld_unit_zero (S := S1024x4096) hz2, View.ld_unit_zero (S := S512x4096) hz2, View.ld_unit_zero (S := S1x4096) hz2]
  funext j
  obtain ⟨b', p, f, rfl⟩ : ∃ (b' : Fin 4) (p : Fin 64) (f : Fin 1024), j = ix3 b' p f := ⟨j 0, j 1, j 2, eq_ix3 j⟩
  refine (BlockValue.outN_at (x0 := iblk m c 0 t) (x1 := iblk m c 1 t) (x3 := iblk m c 3 t) (x4 := iblk m c 4 t)
    (x6 := iblk m c 6 t) (x7 := iblk m c 7 t) (x8 := iblk m c 8 t)
    (Zi := Zi m c) (Hi := Hi m c) (Wh := Wh m c) (Wz := Wz m c) (bias := bias m c) (B := rowOf t b') (b' := b') (p := p) (f := f)
    (e0 := blk_0 m c t b' p) (e1 := blk_1 m c t b' p) (e6 := blk_6 m c t) (e7 := blk_7 m c t) (e8 := blk_8 m c t)
    (e3 := blk_3 m c t b' p f) (e4 := blk_4 m c t b' p f)).trans ?_
  exact congrArg (GN (Zi m c) (Mi m c) (Hi m c) (Ni m c) (Wh m c) (Wz m c) (bias m c)) (emb_out12 t b' p f).symm

theorem mem_blk9 (t : Fin cfg0.N) (i : S256x64x1024.Idx) :
    i ∈ ((cfg0.win 9).blk t).view.set ↔ ∀ a : Fin 3, win0_9.index t a * S4x64x1024.size a ≤ (i a).val ∧ (i a).val < win0_9.index t a * S4x64x1024.size a + S4x64x1024.size a := by
  show i ∈ ((View.whole main_v10_0).slice (win0_9.rect t)).set ↔ _
  rw [View.set_slice_whole, Rect.mem_set_unit]
  exact Iff.rfl

theorem cover_9 (i : S256x64x1024.Idx) : ∃ t : Fin cfg0.N, (cfg0.win 9).flush t = true ∧ i ∈ ((cfg0.win 9).blk t).view.set := by
  have hi0 : (i 0).val < 256 := (i 0).isLt
  have hi1 : (i 1).val < 64 := (i 1).isLt
  have hi2 : (i 2).val < 1024 := (i 2).isLt
  have hN : grid0.N = 64 := N_0
  refine ⟨⟨(i 0).val / 4, by show (i 0).val / 4 < grid0.N; omega⟩, flush0_9 _, ?_⟩
  rw [mem_blk9]
  obtain ⟨h0, h1, h2⟩ := idx_9 ⟨(i 0).val / 4, by show (i 0).val / 4 < grid0.N; omega⟩
  intro a
  match a with
  | ⟨0, _⟩ => show win0_9.index _ (0 : Fin 3) * 4 ≤ (i 0).val ∧ (i 0).val < win0_9.index _ (0 : Fin 3) * 4 + 4; rw [h0]; show (i 0).val / 4 * 4 ≤ (i 0).val ∧ (i 0).val < (i 0).val / 4 * 4 + 4; omega
  | ⟨1, _⟩ => show win0_9.index _ (1 : Fin 3) * 64 ≤ (i 1).val ∧ (i 1).val < win0_9.index _ (1 : Fin 3) * 64 + 64; rw [h1]; omega
  | ⟨2, _⟩ => show win0_9.index _ (2 : Fin 3) * 1024 ≤ (i 2).val ∧ (i 2).val < win0_9.index _ (2 : Fin 3) * 1024 + 1024; rw [h2]; omega

/-- The C array after the run. -/
theorem final_9 (c : Dev nD) : (dats m 0 c).arrAt 9 cfg0.N = GC (Zi m c) (Ci m c) (Mi m c) (Hi m c) (msk m c) (Wh m c) (Wz m c) (bias m c) :=
  (dats m 0 c).arrAt_eq_of_cover 9 (GC (Zi m c) (Ci m c) (Mi m c) (Hi m c) (msk m c) (Wh m c) (Wz m c) (bias m c)) (fun t _ => flushed_9 m c t) cover_9

theorem mem_blk10 (t : Fin cfg0.N) (i : S256x64x1024.Idx) :
    i ∈ ((cfg0.win 10).blk t).view.set ↔ ∀ a : Fin 3, win0_10.index t a * S4x64x1024.size a ≤ (i a).val ∧ (i a).val < win0_10.index t a * S4x64x1024.size a + S4x64x1024.size a := by
  show i ∈ ((View.whole main_v10_1).slice (win0_10.rect t)).set ↔ _
  rw [View.set_slice_whole, Rect.mem_set_unit]
  exact Iff.rfl

theorem cover_10 (i : S256x64x1024.Idx) : ∃ t : Fin cfg0.N, (cfg0.win 10).flush t = true ∧ i ∈ ((cfg0.win 10).blk t).view.set := by
  have hi0 : (i 0).val < 256 := (i 0).isLt
  have hi1 : (i 1).val < 64 := (i 1).isLt
  have hi2 : (i 2).val < 1024 := (i 2).isLt
  have hN : grid0.N = 64 := N_0
  refine ⟨⟨(i 0).val / 4, by show (i 0).val / 4 < grid0.N; omega⟩, flush0_10 _, ?_⟩
  rw [mem_blk10]
  obtain ⟨h0, h1, h2⟩ := idx_10 ⟨(i 0).val / 4, by show (i 0).val / 4 < grid0.N; omega⟩
  intro a
  match a with
  | ⟨0, _⟩ => show win0_10.index _ (0 : Fin 3) * 4 ≤ (i 0).val ∧ (i 0).val < win0_10.index _ (0 : Fin 3) * 4 + 4; rw [h0]; show (i 0).val / 4 * 4 ≤ (i 0).val ∧ (i 0).val < (i 0).val / 4 * 4 + 4; omega
  | ⟨1, _⟩ => show win0_10.index _ (1 : Fin 3) * 64 ≤ (i 1).val ∧ (i 1).val < win0_10.index _ (1 : Fin 3) * 64 + 64; rw [h1]; omega
  | ⟨2, _⟩ => show win0_10.index _ (2 : Fin 3) * 1024 ≤ (i 2).val ∧ (i 2).val < win0_10.index _ (2 : Fin 3) * 1024 + 1024; rw [h2]; omega

/-- The M array after the run. -/
theorem final_10 (c : Dev nD) : (dats m 0 c).arrAt 10 cfg0.N = GM (Zi m c) (Mi m c) (Hi m c) (Wh m c) (Wz m c) (bias m c) :=
  (dats m 0 c).arrAt_eq_of_cover 10 (GM (Zi m c) (Mi m c) (Hi m c) (Wh m c) (Wz m c) (bias m c)) (fun t _ => flushed_10 m c t) cover_10

theorem mem_blk11 (t : Fin cfg0.N) (i : S256x64x1024.Idx) :
    i ∈ ((cfg0.win 11).blk t).view.set ↔ ∀ a : Fin 3, win0_11.index t a * S4x64x1024.size a ≤ (i a).val ∧ (i a).val < win0_11.index t a * S4x64x1024.size a + S4x64x1024.size a := by
  show i ∈ ((View.whole main_v10_2).slice (win0_11.rect t)).set ↔ _
  rw [View.set_slice_whole, Rect.mem_set_unit]
  exact Iff.rfl

theorem cover_11 (i : S256x64x1024.Idx) : ∃ t : Fin cfg0.N, (cfg0.win 11).flush t = true ∧ i ∈ ((cfg0.win 11).blk t).view.set := by
  have hi0 : (i 0).val < 256 := (i 0).isLt
  have hi1 : (i 1).val < 64 := (i 1).isLt
  have hi2 : (i 2).val < 1024 := (i 2).isLt
  have hN : grid0.N = 64 := N_0
  refine ⟨⟨(i 0).val / 4, by show (i 0).val / 4 < grid0.N; omega⟩, flush0_11 _, ?_⟩
  rw [mem_blk11]
  obtain ⟨h0, h1, h2⟩ := idx_11 ⟨(i 0).val / 4, by show (i 0).val / 4 < grid0.N; omega⟩
  intro a
  match a with
  | ⟨0, _⟩ => show win0_11.index _ (0 : Fin 3) * 4 ≤ (i 0).val ∧ (i 0).val < win0_11.index _ (0 : Fin 3) * 4 + 4; rw [h0]; show (i 0).val / 4 * 4 ≤ (i 0).val ∧ (i 0).val < (i 0).val / 4 * 4 + 4; omega
  | ⟨1, _⟩ => show win0_11.index _ (1 : Fin 3) * 64 ≤ (i 1).val ∧ (i 1).val < win0_11.index _ (1 : Fin 3) * 64 + 64; rw [h1]; omega
  | ⟨2, _⟩ => show win0_11.index _ (2 : Fin 3) * 1024 ≤ (i 2).val ∧ (i 2).val < win0_11.index _ (2 : Fin 3) * 1024 + 1024; rw [h2]; omega

/-- The H array after the run. -/
theorem final_11 (c : Dev nD) : (dats m 0 c).arrAt 11 cfg0.N = GH (Zi m c) (Ci m c) (Mi m c) (Hi m c) (Ni m c) (msk m c) (Wh m c) (Wz m c) (bias m c) :=
  (dats m 0 c).arrAt_eq_of_cover 11 (GH (Zi m c) (Ci m c) (Mi m c) (Hi m c) (Ni m c) (msk m c) (Wh m c) (Wz m c) (bias m c)) (fun t _ => flushed_11 m c t) cover_11

theorem mem_blk12 (t : Fin cfg0.N) (i : S256x64x1024.Idx) :
    i ∈ ((cfg0.win 12).blk t).view.set ↔ ∀ a : Fin 3, win0_12.index t a * S4x64x1024.size a ≤ (i a).val ∧ (i a).val < win0_12.index t a * S4x64x1024.size a + S4x64x1024.size a := by
  show i ∈ ((View.whole main_v10_3).slice (win0_12.rect t)).set ↔ _
  rw [View.set_slice_whole, Rect.mem_set_unit]
  exact Iff.rfl

theorem cover_12 (i : S256x64x1024.Idx) : ∃ t : Fin cfg0.N, (cfg0.win 12).flush t = true ∧ i ∈ ((cfg0.win 12).blk t).view.set := by
  have hi0 : (i 0).val < 256 := (i 0).isLt
  have hi1 : (i 1).val < 64 := (i 1).isLt
  have hi2 : (i 2).val < 1024 := (i 2).isLt
  have hN : grid0.N = 64 := N_0
  refine ⟨⟨(i 0).val / 4, by show (i 0).val / 4 < grid0.N; omega⟩, flush0_12 _, ?_⟩
  rw [mem_blk12]
  obtain ⟨h0, h1, h2⟩ := idx_12 ⟨(i 0).val / 4, by show (i 0).val / 4 < grid0.N; omega⟩
  intro a
  match a with
  | ⟨0, _⟩ => show win0_12.index _ (0 : Fin 3) * 4 ≤ (i 0).val ∧ (i 0).val < win0_12.index _ (0 : Fin 3) * 4 + 4; rw [h0]; show (i 0).val / 4 * 4 ≤ (i 0).val ∧ (i 0).val < (i 0).val / 4 * 4 + 4; omega
  | ⟨1, _⟩ => show win0_12.index _ (1 : Fin 3) * 64 ≤ (i 1).val ∧ (i 1).val < win0_12.index _ (1 : Fin 3) * 64 + 64; rw [h1]; omega
  | ⟨2, _⟩ => show win0_12.index _ (2 : Fin 3) * 1024 ≤ (i 2).val ∧ (i 2).val < win0_12.index _ (2 : Fin 3) * 1024 + 1024; rw [h2]; omega

/-- The N array after the run. -/
theorem final_12 (c : Dev nD) : (dats m 0 c).arrAt 12 cfg0.N = GN (Zi m c) (Mi m c) (Hi m c) (Ni m c) (Wh m c) (Wz m c) (bias m c) :=
  (dats m 0 c).arrAt_eq_of_cover 12 (GN (Zi m c) (Mi m c) (Hi m c) (Ni m c) (Wh m c) (Wz m c) (bias m c)) (fun t _ => flushed_12 m c t) cover_12

/-! The result arrays in terms of the argument arrays as they were at the start. -/
theorem result_9 (c : Dev nD) : (dats m 0 c).arrAt 9 cfg0.N = GC (m ((c : Thread nD τ).loc main_arg0)) (m ((c : Thread nD τ).loc main_arg1)) (m ((c : Thread nD τ).loc main_arg2)) (m ((c : Thread nD τ).loc main_arg3)) (m ((c : Thread nD τ).loc main_arg5)) (joinH m c) (joinZ m c) (joinB m c) := by
  have hZ : Zi m c = m ((c : Thread nD τ).loc main_arg0) := V_main_arg0 m c
  have hC : Ci m c = m ((c : Thread nD τ).loc main_arg1) := V_main_arg1 m c
  have hM : Mi m c = m ((c : Thread nD τ).loc main_arg2) := V_main_arg2 m c
  have hH : Hi m c = m ((c : Thread nD τ).loc main_arg3) := V_main_arg3 m c
  have hN : Ni m c = m ((c : Thread nD τ).loc main_arg4) := V_main_arg4 m c
  have hK : msk m c = m ((c : Thread nD τ).loc main_arg5) := V_main_arg5 m c
  have hWh : Wh m c = joinH m c := V_v1 m c
  have hWz : Wz m c = joinZ m c := V_v3 m c
  have hb : bias m c = joinB m c := funext fun i => by rw [eq_ix1 i]; exact V_v9 m c (i 0)
  rw [final_9, hZ, hC, hM, hH, hK, hWh, hWz, hb]

theorem result_10 (c : Dev nD) : (dats m 0 c).arrAt 10 cfg0.N = GM (m ((c : Thread nD τ).loc main_arg0)) (m ((c : Thread nD τ).loc main_arg2)) (m ((c : Thread nD τ).loc main_arg3)) (joinH m c) (joinZ m c) (joinB m c) := by
  have hZ : Zi m c = m ((c : Thread nD τ).loc main_arg0) := V_main_arg0 m c
  have hC : Ci m c = m ((c : Thread nD τ).loc main_arg1) := V_main_arg1 m c
  have hM : Mi m c = m ((c : Thread nD τ).loc main_arg2) := V_main_arg2 m c
  have hH : Hi m c = m ((c : Thread nD τ).loc main_arg3) := V_main_arg3 m c
  have hN : Ni m c = m ((c : Thread nD τ).loc main_arg4) := V_main_arg4 m c
  have hK : msk m c = m ((c : Thread nD τ).loc main_arg5) := V_main_arg5 m c
  have hWh : Wh m c = joinH m c := V_v1 m c
  have hWz : Wz m c = joinZ m c := V_v3 m c
  have hb : bias m c = joinB m c := funext fun i => by rw [eq_ix1 i]; exact V_v9 m c (i 0)
  rw [final_10, hZ, hM, hH, hWh, hWz, hb]

theorem result_11 (c : Dev nD) : (dats m 0 c).arrAt 11 cfg0.N = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (joinH m c) (joinZ m c) (joinB m c) := by
  have hZ : Zi m c = m ((c : Thread nD τ).loc main_arg0) := V_main_arg0 m c
  have hC : Ci m c = m ((c : Thread nD τ).loc main_arg1) := V_main_arg1 m c
  have hM : Mi m c = m ((c : Thread nD τ).loc main_arg2) := V_main_arg2 m c
  have hH : Hi m c = m ((c : Thread nD τ).loc main_arg3) := V_main_arg3 m c
  have hN : Ni m c = m ((c : Thread nD τ).loc main_arg4) := V_main_arg4 m c
  have hK : msk m c = m ((c : Thread nD τ).loc main_arg5) := V_main_arg5 m c
  have hWh : Wh m c = joinH m c := V_v1 m c
  have hWz : Wz m c = joinZ m c := V_v3 m c
  have hb : bias m c = joinB m c := funext fun i => by rw [eq_ix1 i]; exact V_v9 m c (i 0)
  rw [final_11, hZ, hC, hM, hH, hN, hK, hWh, hWz, hb]

theorem result_12 (c : Dev nD) : (dats m 0 c).arrAt 12 cfg0.N = GN (m ((c : Thread nD τ).loc main_arg0)) (m ((c : Thread nD τ).loc main_arg2)) (m ((c : Thread nD τ).loc main_arg3)) (m ((c : Thread nD τ).loc main_arg4)) (joinH m c) (joinZ m c) (joinB m c) := by
  have hZ : Zi m c = m ((c : Thread nD τ).loc main_arg0) := V_main_arg0 m c
  have hC : Ci m c = m ((c : Thread nD τ).loc main_arg1) := V_main_arg1 m c
  have hM : Mi m c = m ((c : Thread nD τ).loc main_arg2) := V_main_arg2 m c
  have hH : Hi m c = m ((c : Thread nD τ).loc main_arg3) := V_main_arg3 m c
  have hN : Ni m c = m ((c : Thread nD τ).loc main_arg4) := V_main_arg4 m c
  have hK : msk m c = m ((c : Thread nD τ).loc main_arg5) := V_main_arg5 m c
  have hWh : Wh m c = joinH m c := V_v1 m c
  have hWz : Wz m c = joinZ m c := V_v3 m c
  have hb : bias m c = joinB m c := funext fun i => by rw [eq_ix1 i]; exact V_v9 m c (i 0)
  rw [final_12, hZ, hM, hH, hN, hWh, hWz, hb]

/-- The idealized kernel's run: the four results are the specified arrays of the arguments, and the arguments
    end as they began. -/
theorem kernel_run (ρ : Dev nD → PrngReg) : θ_run defs (onTc (τ := τ) (main (F := Ideal))) ⟨m, fun _ => 0, ρ⟩ (fun r => ∀ c : Dev nD,
      r.2.mem ((c.tc : Thread nD τ).loc main_v10_0) = GC (m ((c : Thread nD τ).loc main_arg0)) (m ((c : Thread nD τ).loc main_arg1)) (m ((c : Thread nD τ).loc main_arg2)) (m ((c : Thread nD τ).loc main_arg3)) (m ((c : Thread nD τ).loc main_arg5)) (joinH m c) (joinZ m c) (joinB m c)
      ∧ r.2.mem ((c.tc : Thread nD τ).loc main_v10_1) = GM (m ((c : Thread nD τ).loc main_arg0)) (m ((c : Thread nD τ).loc main_arg2)) (m ((c : Thread nD τ).loc main_arg3)) (joinH m c) (joinZ m c) (joinB m c)
      ∧ r.2.mem ((c.tc : Thread nD τ).loc main_v10_2) = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (joinH m c) (joinZ m c) (joinB m c)
      ∧ r.2.mem ((c.tc : Thread nD τ).loc main_v10_3) = GN (m ((c : Thread nD τ).loc main_arg0)) (m ((c : Thread nD τ).loc main_arg2)) (m ((c : Thread nD τ).loc main_arg3)) (m ((c : Thread nD τ).loc main_arg4)) (joinH m c) (joinZ m c) (joinB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨((h c).1 9).trans (result_9 m c), ((h c).1 10).trans (result_10 m c),
      ((h c).1 11).trans (result_11 m c), ((h c).1 12).trans (result_12 m c),
      ((h c).1 0).trans ((((dats m) 0 c).arrAt_in 0 rfl _).trans ((A_eq m c 0).trans (V_main_arg0 m c))),
      ((h c).1 2).trans ((((dats m) 0 c).arrAt_in 2 rfl _).trans ((A_eq m c 2).trans (V_main_arg1 m c))),
      ((h c).1 3).trans ((((dats m) 0 c).arrAt_in 3 rfl _).trans ((A_eq m c 3).trans (V_main_arg2 m c))),
      ((h c).1 1).trans ((((dats m) 0 c).arrAt_in 1 rfl _).trans ((A_eq m c 1).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) (run_main m ρ)

end Cert.KernelIdeal.Hand

end
-- ==== Proof.RefVal.lean ====
/-
  The reference, read at an index, is the specification: its two matrix products against the joined matrices and
  its joined bias are the row of gate pre-activations, its four slices the four bands, and the rest is the same
  scalar recurrence. The reference spells the sigmoid as 1 / (1 + exp (−x)), which is the logistic function
  because the word of the float 1.0 is the number one.
-/
import proofs.«178776_j31688268710611_2_alg».proof.Proof.Gen.ReferenceIdeal.Read
import proofs.«178776_j31688268710611_2_alg».proof.Proof.Spec

noncomputable section

namespace Cert.ReferenceIdeal.RefValue

open Cert.ReferenceIdeal Cert.ReferenceIdeal.Gen Cert.ReferenceIdeal.Read Cert.LstmSpec
open Idealize.ShloMosaic Idealize.ShloMosaic.ValueIdx Idealize.ShloMosaic.TcCoe Idealize.SL.Sem

variable (x0 : (⟨S256x64x512, .f32⟩ : BufTy).Contents (Elt Ideal)) (x1 x2 x3 x4 : (⟨S256x64x1024, .f32⟩ : BufTy).Contents (Elt Ideal))
  (x5 : (⟨S256x64x1, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S512x1024, .f32⟩ : BufTy).Contents (Elt Ideal)) (x15 : (⟨S1024, .f32⟩ : BufTy).Contents (Elt Ideal)) (x16 : (⟨S512x1024, .f32⟩ : BufTy).Contents (Elt Ideal)) (x17 : (⟨S1024, .f32⟩ : BufTy).Contents (Elt Ideal)) (x18 : (⟨S512x1024, .f32⟩ : BufTy).Contents (Elt Ideal)) (x19 : (⟨S1024, .f32⟩ : BufTy).Contents (Elt Ideal)) (x20 : (⟨S512x1024, .f32⟩ : BufTy).Contents (Elt Ideal)) (x21 : (⟨S1024, .f32⟩ : BufTy).Contents (Elt Ideal))

/-- The joined matrices and bias, as the reference forms them. -/
abbrev Wh : A2 1024 := val_main_v0 (F := Ideal) x6 x8 x10 x12
abbrev Wz : A2 512 := val_main_v1 (F := Ideal) x14 x16 x18 x20
abbrev bias : A1 := val_main_v6 (F := Ideal) x7 x9 x11 x13 x15 x17 x19 x21

/-- The reference's sheet of pre-activations at (b, p, j). -/
theorem v12_at (i : S256x64x4096.Idx) :
    val_main_v12 (F := Ideal) x0 x3 x6 x7 x8 x9 x10 x11 x12 x13 x14 x15 x16 x17 x18 x19 x20 x21 i
      = gate x3 x0 (Wh x6 x8 x10 x12) (Wz x14 x16 x18 x20) (bias x7 x9 x11 x13 x15 x17 x19 x21) (i 0) (i 1) (i 2) := by
  have el7 : ∀ k, lidx_main_v7 i k = ix3 (i 0) (i 1) k := fun k => funext fun a => by
    match a with
    | ⟨0, _⟩ => rfl
    | ⟨1, _⟩ => rfl
    | ⟨2, _⟩ => rfl
  have er7 : ∀ k, ridx_main_v7 i k = ix2 k (i 2) := fun k => funext fun a => by
    match a with
    | ⟨0, _⟩ => rfl
    | ⟨1, _⟩ => rfl
  have el8 : ∀ k, lidx_main_v8 i k = ix3 (i 0) (i 1) k := fun k => funext fun a => by
    match a with
    | ⟨0, _⟩ => rfl
    | ⟨1, _⟩ => rfl
    | ⟨2, _⟩ => rfl
  have er8 : ∀ k, ridx_main_v8 i k = ix2 k (i 2) := fun k => funext fun a => by
    match a with
    | ⟨0, _⟩ => rfl
    | ⟨1, _⟩ => rfl
  have eb : idx_main_v10 (idx_main_v11 i) = ix1 (i 2) := funext fun a => by
    match a with
    | ⟨0, _⟩ => rfl
  rw [val_main_v12_apply, val_main_v9_apply, val_main_v7_apply, val_main_v8_apply, val_main_v11_apply, val_main_v10_apply, eb]
  simp only [el7, er7, el8, er8]
  rfl

/-- The mask column spread along the features, as the reference indexes it. -/
theorem mask_idx (i : S256x64x1024.Idx) : idx_main_v36 i = ix3 (i 0) (i 1) (0 : Fin 1) := funext fun a => by
  match a with
  | ⟨0, _⟩ => rfl
  | ⟨1, _⟩ => rfl
  | ⟨2, _⟩ => rfl
theorem mask_idx40 (i : S256x64x1024.Idx) : idx_main_v40 i = ix3 (i 0) (i 1) (0 : Fin 1) := funext fun a => by
  match a with
  | ⟨0, _⟩ => rfl
  | ⟨1, _⟩ => rfl
  | ⟨2, _⟩ => rfl
theorem mask_idx45 (i : S256x64x1024.Idx) : idx_main_v45 i = ix3 (i 0) (i 1) (0 : Fin 1) := funext fun a => by
  match a with
  | ⟨0, _⟩ => rfl
  | ⟨1, _⟩ => rfl
  | ⟨2, _⟩ => rfl
theorem mask_idx49 (i : S256x64x1024.Idx) : idx_main_v49 i = ix3 (i 0) (i 1) (0 : Fin 1) := funext fun a => by
  match a with
  | ⟨0, _⟩ => rfl
  | ⟨1, _⟩ => rfl
  | ⟨2, _⟩ => rfl

/-- The reference's spelling of the sigmoid is the logistic function. -/
theorem sigmoid_eq (x : EReal) :
    Ideal.div (Ideal.ofBits .f32 0x3F800000#32) (Ideal.ofBits .f32 0x3F800000#32 + Ideal.exp (-x)) = Ideal.logistic x := by
  have h : Ideal.ofBits .f32 0x3F800000#32 = (1 : EReal) := one_eq
  rw [h]; rfl

/-- The new stabiliser. -/
theorem ref_M : val_main_v18 (F := Ideal) x0 x2 x3 x6 x7 x8 x9 x10 x11 x12 x13 x14 x15 x16 x17 x18 x19 x20 x21 = GM x0 x2 x3 (Wh x6 x8 x10 x12) (Wz x14 x16 x18 x20) (bias x7 x9 x11 x13 x15 x17 x19 x21) := by
  funext i
  simp only [val_main_v18_apply, val_main_v17_apply, val_main_v14_apply, val_main_v13_apply, v12_at]
  rfl

/-- The new normaliser. -/
theorem ref_N : val_main_v31 (F := Ideal) x0 x2 x3 x4 x6 x7 x8 x9 x10 x11 x12 x13 x14 x15 x16 x17 x18 x19 x20 x21 = GN x0 x2 x3 x4 (Wh x6 x8 x10 x12) (Wz x14 x16 x18 x20) (bias x7 x9 x11 x13 x15 x17 x19 x21) := by
  funext i
  simp only [val_main_v31_apply, val_main_v30_apply, val_main_v23_apply, val_main_v22_apply, val_main_v21_apply, val_main_v20_apply,
    val_main_v19_apply, val_main_v18_apply, val_main_v17_apply, val_main_v14_apply, val_main_v13_apply, v12_at]
  rfl

/-- The new cell state. -/
theorem ref_C : val_main_v42 (F := Ideal) x0 x1 x2 x3 x5 x6 x7 x8 x9 x10 x11 x12 x13 x14 x15 x16 x17 x18 x19 x20 x21 = GC x0 x1 x2 x3 x5 (Wh x6 x8 x10 x12) (Wz x14 x16 x18 x20) (bias x7 x9 x11 x13 x15 x17 x19 x21) := by
  funext i
  simp only [val_main_v42_apply, val_main_v41_apply, val_main_v40_apply, val_main_v39_apply, val_main_v38_apply, val_main_cst_1_apply,
    val_main_v37_apply, val_main_v36_apply, val_main_v35_apply, val_main_v34_apply, val_main_v33_apply, val_main_v32_apply,
    val_main_v23_apply, val_main_v22_apply, val_main_v21_apply, val_main_v20_apply,
    val_main_v19_apply, val_main_v18_apply, val_main_v17_apply, val_main_v16_apply, val_main_v14_apply, val_main_v13_apply, v12_at,
    mask_idx, mask_idx40]
  rfl

/-- The new hidden state. -/
theorem ref_H : val_main_v51 (F := Ideal) x0 x1 x2 x3 x4 x5 x6 x7 x8 x9 x10 x11 x12 x13 x14 x15 x16 x17 x18 x19 x20 x21 = GH x0 x1 x2 x3 x4 x5 (Wh x6 x8 x10 x12) (Wz x14 x16 x18 x20) (bias x7 x9 x11 x13 x15 x17 x19 x21) := by
  funext i
  simp only [val_main_v51_apply, val_main_v50_apply, val_main_v49_apply, val_main_v48_apply, val_main_v47_apply, val_main_cst_2_apply,
    val_main_v46_apply, val_main_v45_apply, val_main_v44_apply, val_main_v43_apply, val_main_v29_apply, val_main_v28_apply,
    val_main_cst_0_apply, val_main_v27_apply, val_main_v26_apply, val_main_cst_apply, val_main_v25_apply, val_main_v24_apply,
    val_main_v15_apply, val_main_v31_apply, val_main_v30_apply,
    val_main_v42_apply, val_main_v41_apply, val_main_v40_apply, val_main_v39_apply, val_main_v38_apply, val_main_cst_1_apply,
    val_main_v37_apply, val_main_v36_apply, val_main_v35_apply, val_main_v34_apply, val_main_v33_apply, val_main_v32_apply,
    val_main_v23_apply, val_main_v22_apply, val_main_v21_apply, val_main_v20_apply,
    val_main_v19_apply, val_main_v18_apply, val_main_v17_apply, val_main_v16_apply, val_main_v14_apply, val_main_v13_apply, v12_at,
    mask_idx, mask_idx40, mask_idx45, mask_idx49]
  simp only [Ideal.hostDivf_def, Ideal.addf_def, Ideal.hostNegf_def, Ideal.negf_def, Ideal.hostUnary_exp_def, Ideal.ofBits_def, Ideal.mulf_def,
    Ideal.subf_def, Ideal.maximumf_def, Ideal.hostUnary_tanh_def]
  rw [sigmoid_eq]
  rfl

/-- The reference's run: its four results are the specified arrays of its arguments, which end as they began. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = GC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (Wh (m ((c.tc : Thread nD τ).loc main_arg6)) (m ((c.tc : Thread nD τ).loc main_arg8)) (m ((c.tc : Thread nD τ).loc main_arg10)) (m ((c.tc : Thread nD τ).loc main_arg12))) (Wz (m ((c.tc : Thread nD τ).loc main_arg14)) (m ((c.tc : Thread nD τ).loc main_arg16)) (m ((c.tc : Thread nD τ).loc main_arg18)) (m ((c.tc : Thread nD τ).loc main_arg20))) (bias (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg19)) (m ((c.tc : Thread nD τ).loc main_arg21)))
      ∧ r.2.mem ((c.tc : Thread nD τ).loc main_v18) = GM (m ((c.tc : Thread nD τ).loc main_arg0)) (m ((c.tc : Thread nD τ).loc main_arg2)) (m ((c.tc : Thread nD τ).loc main_arg3)) (Wh (m ((c.tc : Thread nD τ).loc main_arg6)) (m ((c.tc : Thread nD τ).loc main_arg8)) (m ((c.tc : Thread nD τ).loc main_arg10)) (m ((c.tc : Thread nD τ).loc main_arg12))) (Wz (m ((c.tc : Thread nD τ).loc main_arg14)) (m ((c.tc : Thread nD τ).loc main_arg16)) (m ((c.tc : Thread nD τ).loc main_arg18)) (m ((c.tc : Thread nD τ).loc main_arg20))) (bias (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg19)) (m ((c.tc : Thread nD τ).loc main_arg21)))
      ∧ r.2.mem ((c.tc : Thread nD τ).loc main_v51) = GH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (Wh (m ((c.tc : Thread nD τ).loc main_arg6)) (m ((c.tc : Thread nD τ).loc main_arg8)) (m ((c.tc : Thread nD τ).loc main_arg10)) (m ((c.tc : Thread nD τ).loc main_arg12))) (Wz (m ((c.tc : Thread nD τ).loc main_arg14)) (m ((c.tc : Thread nD τ).loc main_arg16)) (m ((c.tc : Thread nD τ).loc main_arg18)) (m ((c.tc : Thread nD τ).loc main_arg20))) (bias (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg19)) (m ((c.tc : Thread nD τ).loc main_arg21)))
      ∧ r.2.mem ((c.tc : Thread nD τ).loc main_v31) = GN (m ((c.tc : Thread nD τ).loc main_arg0)) (m ((c.tc : Thread nD τ).loc main_arg2)) (m ((c.tc : Thread nD τ).loc main_arg3)) (m ((c.tc : Thread nD τ).loc main_arg4)) (Wh (m ((c.tc : Thread nD τ).loc main_arg6)) (m ((c.tc : Thread nD τ).loc main_arg8)) (m ((c.tc : Thread nD τ).loc main_arg10)) (m ((c.tc : Thread nD τ).loc main_arg12))) (Wz (m ((c.tc : Thread nD τ).loc main_arg14)) (m ((c.tc : Thread nD τ).loc main_arg16)) (m ((c.tc : Thread nD τ).loc main_arg18)) (m ((c.tc : Thread nD τ).loc main_arg20))) (bias (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg19)) (m ((c.tc : Thread nD τ).loc main_arg21)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c =>
    ⟨(h c).1.trans ((val_main_v42_eq m c).trans (ref_C ..)),
      (h c).2.1.trans ((val_main_v18_eq ..).trans (ref_M ..)),
      (h c).2.2.1.trans ((val_main_v51_eq m c).trans (ref_H ..)),
      (h c).2.2.2.1.trans ((val_main_v31_eq m c).trans (ref_N ..)),
      (h c).2.2.2.2⟩) (Cert.ReferenceIdeal.Value.run (F := Ideal) m ρ)

end Cert.ReferenceIdeal.RefValue

end
-- ==== Proof.lean ====
/-
  A fused step of an exponentially gated recurrent cell: four gates from two matrix products against joined
  weight matrices plus a joined bias, a running stabiliser, and masked updates of the cell, the normaliser and the
  hidden state. The kernel streams the batch in slabs of four rows through one launch; the reference is the same
  arithmetic on whole arrays. Both programs run to the end without a fault and leave their arguments as they were
  (the kernel both as printed and read over the extended reals), and over the extended reals their four results are
  the same arrays, index by index: the specification in Proof/Spec.lean. No finiteness of the inputs is needed,
  because the two sides group every sum and product the same way.
-/
import proofs.«178776_j31688268710611_2_alg».proof.Defs
import proofs.«178776_j31688268710611_2_alg».proof.Proof.Gen.Kernel
import proofs.«178776_j31688268710611_2_alg».proof.Proof.Gen.KernelIdeal
import proofs.«178776_j31688268710611_2_alg».proof.Proof.Gen.ReferenceIdeal
import proofs.«178776_j31688268710611_2_alg».proof.Proof.Gen.Pre_finite_inputs
import proofs.«178776_j31688268710611_2_alg».proof.Proof.K.Run
import proofs.«178776_j31688268710611_2_alg».proof.Proof.KVal
import proofs.«178776_j31688268710611_2_alg».proof.Proof.RefVal
import Idealize.ShloMosaic.Adequacy
import Idealize.ShloMosaic.Init

noncomputable section

namespace Cert.Proof

open Idealize.ShloMosaic Idealize.SL.Sem Cert.LstmSpec

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2.2.2) (Cert.ReferenceIdeal.Value.run (F := Ideal) m ρ)

set_option maxHeartbeats 1000000 in
/-- Run from memories that agree on the arguments, the two idealized programs end with the same four arrays. -/
theorem algebraic : Cert.algebraic_KernelIdeal_ReferenceIdeal := by
  intro m ρ m' ρ' _ hagree
  refine ⟨_, _, _, _, Cert.KernelIdeal.Hand.kernel_run m ρ, ?_⟩
  refine (θ_run Cert.ReferenceIdeal.defs _ _).mono (fun r h c => ?_) (Cert.ReferenceIdeal.RefValue.ref_run m' ρ')
  obtain ⟨h1, h2, h3, h4, hkept⟩ := h c
  obtain ⟨a0, a1, a2, a3, a4, a5, a6, a7, a8, a9, a10, a11, a12, a13, a14, a15, a16, a17, a18, a19, a20, a21⟩ := hagree c
  refine ⟨h1.trans ?_, h2.trans ?_, h3.trans ?_, h4.trans ?_, hkept⟩
  · rw [a0, a1, a2, a3, a5, a6, a7, a8, a9, a10, a11, a12, a13, a14, a15, a16, a17, a18, a19, a20, a21]
    rfl
  · rw [a0, a2, a3, a6, a7, a8, a9, a10, a11, a12, a13, a14, a15, a16, a17, a18, a19, a20, a21]
    rfl
  · rw [a0, a1, a2, a3, a4, a5, a6, a7, a8, a9, a10, a11, a12, a13, a14, a15, a16, a17, a18, a19, a20, a21]
    rfl
  · rw [a0, a2, a3, a4, a6, a7, a8, a9, a10, a11, a12, a13, a14, a15, a16, a17, a18, a19, a20, a21]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
